-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x50000x64 : Shape := ⟨3, ![4, 50000, 64]⟩
abbrev S4x800000 : Shape := ⟨2, ![4, 800000]⟩
abbrev S4x64x64 : Shape := ⟨3, ![4, 64, 64]⟩
abbrev S64 : Shape := ⟨1, ![64]⟩
abbrev S_ : Shape := ⟨0, ![]⟩

class Facts : Prop where
  bcast_S_S4x50000x64 : S_.BroadcastsInDim S4x50000x64 (![] : Fin 0 → Fin S4x50000x64.rank)
  reducesTo_S4x50000x64_S_d0_1_2 : S4x50000x64.ReducesTo [0, 1, 2] S_
  h_S_ : 0 < S_.numel
  bcast_S_S4x800000 : S_.BroadcastsInDim S4x800000 (![] : Fin 0 → Fin S4x800000.rank)
  reducesTo_S4x800000_S_d0_1 : S4x800000.ReducesTo [0, 1] S_
  bcast_S_S4x64x64 : S_.BroadcastsInDim S4x64x64 (![] : Fin 0 → Fin S4x64x64.rank)
  reducesTo_S4x64x64_S_d0_1_2 : S4x64x64.ReducesTo [0, 1, 2] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S4x50000x64 .f32) (main_arg1 : IVec S4x800000 32) (main_arg2 : IVec S4x800000 32) (main_arg3 : FVec F S4x800000 .f32) (main_arg4 : FVec F S4x64x64 .f32) (main_arg5 : FVec F S64 .f32) : IVec S_ 1 :=
  let main_v0 : FVec F S4x50000x64 .f32 := Host.absf main_arg0
  let main_cst : FVec F S_ .f32 := constant S_ .f32 0x7F800000#32
  let main_v1 : FVec F S4x50000x64 .f32 := broadcastInDim S4x50000x64 ![] bcast_S_S4x50000x64 main_cst
  let main_v2 : IVec S4x50000x64 1 := cmpf .olt main_v0 main_v1
  let main_c : IVec S_ 1 := constantI S_ 1 1#1
  let main_v3 : IVec S_ 1 := (fun x v => Host.reduce IntOp.andi x v reducesTo_S4x50000x64_S_d0_1_2 h_S_) main_v2 main_c
  let main_v4 : FVec F S4x800000 .f32 := Host.absf main_arg3
  let main_cst_0 : FVec F S_ .f32 := constant S_ .f32 0x7F800000#32
  let main_v5 : FVec F S4x800000 .f32 := broadcastInDim S4x800000 ![] bcast_S_S4x800000 main_cst_0
  let main_v6 : IVec S4x800000 1 := cmpf .olt main_v4 main_v5
  let main_c_1 : IVec S_ 1 := constantI S_ 1 1#1
  let main_v7 : IVec S_ 1 := (fun x v => Host.reduce IntOp.andi x v reducesTo_S4x800000_S_d0_1 h_S_) main_v6 main_c_1
  let main_v8 : IVec S_ 1 := andi main_v3 main_v7
  let main_v9 : FVec F S4x64x64 .f32 := Host.absf main_arg4
  let main_cst_2 : FVec F S_ .f32 := constant S_ .f32 0x7F800000#32
  let main_v10 : FVec F S4x64x64 .f32 := broadcastInDim S4x64x64 ![] bcast_S_S4x64x64 main_cst_2
  let main_v11 : IVec S4x64x64 1 := cmpf .olt main_v9 main_v10
  let main_c_3 : IVec S_ 1 := constantI S_ 1 1#1
  let main_v12 : IVec S_ 1 := (fun x v => Host.reduce IntOp.andi x v reducesTo_S4x64x64_S_d0_1_2 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S4x50000x64 : Shape := ⟨3, ![4, 50000, 64]⟩
abbrev S4x800000 : Shape := ⟨2, ![4, 800000]⟩
abbrev S4x64x64 : Shape := ⟨3, ![4, 64, 64]⟩
abbrev S64 : Shape := ⟨1, ![64]⟩
abbrev S4x4x50000x64 : Shape := ⟨4, ![4, 4, 50000, 64]⟩
abbrev S1x10000x64 : Shape := ⟨3, ![1, 10000, 64]⟩
abbrev S1x64x64 : Shape := ⟨3, ![1, 64, 64]⟩
abbrev S1x1x10000x64 : Shape := ⟨4, ![1, 1, 10000, 64]⟩
abbrev S10000x64 : Shape := ⟨2, ![10000, 64]⟩
abbrev S64x64 : Shape := ⟨2, ![64, 64]⟩
abbrev S_ : Shape := ⟨0, ![]⟩
abbrev S1x4x50000x64 : Shape := ⟨4, ![1, 4, 50000, 64]⟩
abbrev S1x800000 : Shape := ⟨2, ![1, 800000]⟩
abbrev S800000 : Shape := ⟨1, ![800000]⟩
abbrev S800000x1 : Shape := ⟨2, ![800000, 1]⟩
abbrev S4x800000x64 : Shape := ⟨3, ![4, 800000, 64]⟩
abbrev S1x800000x1 : Shape := ⟨3, ![1, 800000, 1]⟩
abbrev S800000x4x64 : Shape := ⟨3, ![800000, 4, 64]⟩
abbrev S50000x4x64 : Shape := ⟨3, ![50000, 4, 64]⟩
abbrev S1x1x64 : Shape := ⟨3, ![1, 1, 64]⟩

abbrev nBuf : Space → Nat
  | .hbm => 123
  | .vmem => 6
  | .smem => 0
  | _ => 0

abbrev bufTy : (tb : Table) → Fin (tcTables nBuf tb) → BufTy
  | .hbm, ⟨0, _⟩ => ⟨S4x50000x64, .f32⟩
  | .hbm, ⟨1, _⟩ => ⟨S4x800000, .i32⟩
  | .hbm, ⟨2, _⟩ => ⟨S4x800000, .i32⟩
  | .hbm, ⟨3, _⟩ => ⟨S4x800000, .f32⟩
  | .hbm, ⟨4, _⟩ => ⟨S4x64x64, .f32⟩
  | .hbm, ⟨5, _⟩ => ⟨S64, .f32⟩
  | .hbm, ⟨6, _⟩ => ⟨S4x4x50000x64, .f32⟩
  | .hbm, ⟨7, _⟩ => ⟨S_, .f32⟩
  | .hbm, ⟨8, _⟩ => ⟨S4x50000x64, .f32⟩
  | .hbm, ⟨9, _⟩ => ⟨S1x4x50000x64, .f32⟩
  | .hbm, ⟨10, _⟩ => ⟨S4x50000x64, .f32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S4x800000x64, .f32⟩
  | .hbm, ⟨22, _⟩ => ⟨S1x800000, .f32⟩
  | .hbm, ⟨23, _⟩ => ⟨S800000, .f32⟩
  | .hbm, ⟨24, _⟩ => ⟨S1x800000x1, .f32⟩
  | .hbm, ⟨25, _⟩ => ⟨S4x800000x64, .f32⟩
  | .hbm, ⟨26, _⟩ => ⟨S4x800000x64, .f32⟩
  | .hbm, ⟨27, _⟩ => ⟨S800000x4x64, .f32⟩
  | .hbm, ⟨28, _⟩ => ⟨S1x800000, .i32⟩
  | .hbm, ⟨29, _⟩ => ⟨S800000, .i32⟩
  | .hbm, ⟨30, _⟩ => ⟨S_, .f32⟩
  | .hbm, ⟨31, _⟩ => ⟨S50000x4x64, .f32⟩
  | .hbm, ⟨32, _⟩ => ⟨S800000x1, .i32⟩
  | .hbm, ⟨33, _⟩ => ⟨S50000x4x64, .f32⟩
  | .hbm, ⟨34, _⟩ => ⟨S4x50000x64, .f32⟩
  | .hbm, ⟨35, _⟩ => ⟨S4x50000x64, .f32⟩
  | .hbm, ⟨36, _⟩ => ⟨S1x4x50000x64, .f32⟩
  | .hbm, ⟨37, _⟩ => ⟨S4x50000x64, .f32⟩
  | .hbm, ⟨38, _⟩ => ⟨S1x800000, .i32⟩
  | .hbm, ⟨39, _⟩ => ⟨S800000, .i32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S4x800000x64, .f32⟩
  | .hbm, ⟨49, _⟩ => ⟨S1x800000, .f32⟩
  | .hbm, ⟨50, _⟩ => ⟨S800000, .f32⟩
  | .hbm, ⟨51, _⟩ => ⟨S1x800000x1, .f32⟩
  | .hbm, ⟨52, _⟩ => ⟨S4x800000x64, .f32⟩
  | .hbm, ⟨53, _⟩ => ⟨S4x800000x64, .f32⟩
  | .hbm, ⟨54, _⟩ => ⟨S800000x4x64, .f32⟩
  | .hbm, ⟨55, _⟩ => ⟨S1x800000, .i32⟩
  | .hbm, ⟨56, _⟩ => ⟨S800000, .i32⟩
  | .hbm, ⟨57, _⟩ => ⟨S_, .f32⟩
  | .hbm, ⟨58, _⟩ => ⟨S50000x4x64, .f32⟩
  | .hbm, ⟨59, _⟩ => ⟨S800000x1, .i32⟩
  | .hbm, ⟨60, _⟩ => ⟨S50000x4x64, .f32⟩
  | .hbm, ⟨61, _⟩ => ⟨S4x50000x64, .f32⟩
  | .hbm, ⟨62, _⟩ => ⟨S4x50000x64, .f32⟩
  | .hbm, ⟨63, _⟩ => ⟨S1x4x50000x64, .f32⟩
  | .hbm, ⟨64, _⟩ => ⟨S4x50000x64, .f32⟩
  | .hbm, ⟨65, _⟩ => ⟨S1x800000, .i32⟩
  | .hbm, ⟨66, _⟩ => ⟨S800000, .i32⟩
  | .hbm, ⟨67, _⟩ => ⟨S_, .i32⟩
  | .hbm, ⟨68, _⟩ => ⟨S800000, .i32⟩
  | .hbm, ⟨69, _⟩ => ⟨S800000, .i1⟩
  | .hbm, ⟨70, _⟩ => ⟨S_, .i32⟩
  | .hbm, ⟨71, _⟩ => ⟨S800000, .i32⟩
  | .hbm, ⟨72, _⟩ => ⟨S800000, .i32⟩
  | .hbm, ⟨73, _⟩ => ⟨S800000, .i32⟩
  | .hbm, ⟨74, _⟩ => ⟨S800000x1, .i32⟩
  | .hbm, ⟨75, _⟩ => ⟨S4x800000x64, .f32⟩
  | .hbm, ⟨76, _⟩ => ⟨S1x800000, .f32⟩
  | .hbm, ⟨77, _⟩ => ⟨S800000, .f32⟩
  | .hbm, ⟨78, _⟩ => ⟨S1x800000x1, .f32⟩
  | .hbm, ⟨79, _⟩ => ⟨S4x800000x64, .f32⟩
  | .hbm, ⟨80, _⟩ => ⟨S4x800000x64, .f32⟩
  | .hbm, ⟨81, _⟩ => ⟨S800000x4x64, .f32⟩
  | .hbm, ⟨82, _⟩ => ⟨S1x800000, .i32⟩
  | .hbm, ⟨83, _⟩ => ⟨S800000, .i32⟩
  | .hbm, ⟨84, _⟩ => ⟨S_, .f32⟩
  | .hbm, ⟨85, _⟩ => ⟨S50000x4x64, .f32⟩
  | .hbm, ⟨86, _⟩ => ⟨S800000x1, .i32⟩
  | .hbm, ⟨87, _⟩ => ⟨S50000x4x64, .f32⟩
  | .hbm, ⟨88, _⟩ => ⟨S4x50000x64, .f32⟩
  | .hbm, ⟨89, _⟩ => ⟨S4x50000x64, .f32⟩
  | .hbm, ⟨90, _⟩ => ⟨S1x4x50000x64, .f32⟩
  | .hbm, ⟨91, _⟩ => ⟨S4x50000x64, .f32⟩
  | .hbm, ⟨92, _⟩ => ⟨S1x800000, .i32⟩
  | .hbm, ⟨93, _⟩ => ⟨S800000, .i32⟩
  | .hbm, ⟨94, _⟩ => ⟨S_, .i32⟩
  | .hbm, ⟨95, _⟩ => ⟨S800000, .i32⟩
  | .hbm, ⟨96, _⟩ => ⟨S800000, .i1⟩
  | .hbm, ⟨97, _⟩ => ⟨S_, .i32⟩
  | .hbm, ⟨98, _⟩ => ⟨S800000, .i32⟩
  | .hbm, ⟨99, _⟩ => ⟨S800000, .i32⟩
  | .hbm, ⟨100, _⟩ => ⟨S800000, .i32⟩
  | .hbm, ⟨101, _⟩ => ⟨S800000x1, .i32⟩
  | .hbm, ⟨102, _⟩ => ⟨S4x800000x64, .f32⟩
  | .hbm, ⟨103, _⟩ => ⟨S1x800000, .f32⟩
  | .hbm, ⟨104, _⟩ => ⟨S800000, .f32⟩
  | .hbm, ⟨105, _⟩ => ⟨S1x800000x1, .f32⟩
  | .hbm, ⟨106, _⟩ => ⟨S4x800000x64, .f32⟩
  | .hbm, ⟨107, _⟩ => ⟨S4x800000x64, .f32⟩
  | .hbm, ⟨108, _⟩ => ⟨S800000x4x64, .f32⟩
  | .hbm, ⟨109, _⟩ => ⟨S1x800000, .i32⟩
  | .hbm, ⟨110, _⟩ => ⟨S800000, .i32⟩
  | .hbm, ⟨111, _⟩ => ⟨S_, .f32⟩
  | .hbm, ⟨112, _⟩ => ⟨S50000x4x64, .f32⟩
  | .hbm, ⟨113, _⟩ => ⟨S800000x1, .i32⟩
  | .hbm, ⟨114, _⟩ => ⟨S50000x4x64, .f32⟩
  | .hbm, ⟨115, _⟩ => ⟨S4x50000x64, .f32⟩
  | .hbm, ⟨116, _⟩ => ⟨S4x50000x64, .f32⟩
  | .hbm, ⟨117, _⟩ => ⟨S1x1x64, .f32⟩
  | .hbm, ⟨118, _⟩ => ⟨S4x50000x64, .f32⟩
  | .hbm, ⟨119, _⟩ => ⟨S4x50000x64, .f32⟩
  | .hbm, ⟨120, _⟩ => ⟨S_, .f32⟩
  | .hbm, ⟨121, _⟩ => ⟨S4x50000x64, .f32⟩
  | .hbm, ⟨122, _⟩ => ⟨S4x50000x64, .f32⟩
  | .local _ .vmem, ⟨0, _⟩ => ⟨S1x10000x64, .f32⟩
  | .local _ .vmem, ⟨1, _⟩ => ⟨S1x10000x64, .f32⟩
  | .local _ .vmem, ⟨2, _⟩ => ⟨S1x64x64, .f32⟩
  | .local _ .vmem, ⟨3, _⟩ => ⟨S1x64x64, .f32⟩
  | .local _ .vmem, ⟨4, _⟩ => ⟨S1x1x10000x64, .f32⟩
  | .local _ .vmem, ⟨5, _⟩ => ⟨S1x1x10000x64, .f32⟩
  | _, _ => ⟨S4x50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_2 : Ref sig .tc := ⟨.hbm, 40, rfl⟩
abbrev main_v30 : Ref sig .tc := ⟨.hbm, 41, rfl⟩
abbrev main_v31 : Ref sig .tc := ⟨.hbm, 42, rfl⟩
abbrev main_c_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_4 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_c_5 : Ref sig .tc := ⟨.hbm, 67, rfl⟩
abbrev main_v54 : Ref sig .tc := ⟨.hbm, 68, rfl⟩
abbrev main_v55 : Ref sig .tc := ⟨.hbm, 69, rfl⟩
abbrev main_c_6 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_cst_7 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_c_8 : Ref sig .tc := ⟨.hbm, 94, rfl⟩
abbrev main_v78 : Ref sig .tc := ⟨.hbm, 95, rfl⟩
abbrev main_v79 : Ref sig .tc := ⟨.hbm, 96, rfl⟩
abbrev main_c_9 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_cst_10 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_call0_cst : Ref sig .tc := ⟨.hbm, 120, rfl⟩
abbrev main_call0_v0 : Ref sig .tc := ⟨.hbm, 121, rfl⟩
abbrev main_v101 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, arg1.toNat, c0_i32.toNat]

abbrev stage0_0 : Fin 2 → Memref sig .tc .vmem S1x10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1x10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  inb_S1x10000x64_S1x10000x64_0_0_0 : ∀ a, (![0, 0, 0] : Fin 3 → Nat) a + S1x10000x64.size a ≤ S1x10000x64.size a
  h_S1x10000x64 : 0 < S1x10000x64.numel
  shapeCasts_S1x10000x64_S10000x64 : S1x10000x64.ShapeCasts S10000x64
  bitsLt_bf16_f32 : FTy.bits .bf16 < FTy.bits .f32
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  inb_S1x1x10000x64_S1x1x10000x64_0_0_0_0 : ∀ a, (![0, 0, 0, 0] : Fin 4 → Nat) a + S1x1x10000x64.size a ≤ S1x1x10000x64.size a
  h_S1x1x10000x64 : 0 < S1x1x10000x64.numel
  shapeCasts_S1x1x10000x64_S10000x64 : S1x1x10000x64.ShapeCasts S10000x64
  shapeCasts_S10000x64_S1x1x10000x64 : S10000x64.ShapeCasts S1x1x10000x64
  bcast_S_S4x50000x64 : S_.BroadcastsInDim S4x50000x64 (![] : Fin 0 → Fin S4x50000x64.rank)
  slices_S4x4x50000x64_S1x4x50000x64_0_0_0_0 : S4x4x50000x64.Slices ![0, 0, 0, 0] S1x4x50000x64
  shapeCasts_S1x4x50000x64_S4x50000x64 : S1x4x50000x64.ShapeCasts S4x50000x64
  slices_S4x800000_S1x800000_0_0 : S4x800000.Slices ![0, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  bcast_S800000_S1x800000x1_1 : S800000.BroadcastsInDim S1x800000x1 (![1] : Fin 1 → Fin S1x800000x1.rank)
  bcast_S1x800000x1_S4x800000x64_0_1_2 : S1x800000x1.BroadcastsInDim S4x800000x64 (![0, 1, 2] : Fin 3 → Fin S4x800000x64.rank)
  transposes_S4x800000x64_S800000x4x64_1_0_2 : S4x800000x64.Transposes [1, 0, 2] S800000x4x64
  bcast_S_S50000x4x64 : S_.BroadcastsInDim S50000x4x64 (![] : Fin 0 → Fin S50000x4x64.rank)
  transposes_S50000x4x64_S4x50000x64_1_0_2 : S50000x4x64.Transposes [1, 0, 2] S4x50000x64
  slices_S4x4x50000x64_S1x4x50000x64_1_0_0_0 : S4x4x50000x64.Slices ![1, 0, 0, 0] S1x4x50000x64
  slices_S4x800000_S1x800000_1_0 : S4x800000.Slices ![1, 0] S1x800000
  slices_S4x4x50000x64_S1x4x50000x64_2_0_0_0 : S4x4x50000x64.Slices ![2, 0, 0, 0] S1x4x50000x64
  slices_S4x800000_S1x800000_2_0 : S4x800000.Slices ![2, 0] S1x800000
  slices_S4x4x50000x64_S1x4x50000x64_3_0_0_0 : S4x4x50000x64.Slices ![3, 0, 0, 0] S1x4x50000x64
  slices_S4x800000_S1x800000_3_0 : S4x800000.Slices ![3, 0] S1x800000
  bcast_S64_S1x1x64_2 : S64.BroadcastsInDim S1x1x64 (![2] : Fin 1 → Fin S1x1x64.rank)
  bcast_S1x1x64_S4x50000x64_0_1_2 : S1x1x64.BroadcastsInDim S4x50000x64 (![0, 1, 2] : Fin 3 → Fin S4x50000x64.rank)
  dot_S10000x64_S64x64_S10000x64_1_0_0_1_n_n_wf : DotDims.WF S10000x64 S64x64 S10000x64 [1] [0] [0] [1] [] []
  gather_S4x50000x64_S800000x1_S4x800000x64_02_1_n_n_1_1_4164_wf : GatherDims.WF S4x50000x64 S800000x1 S4x800000x64 [0, 2] [1] [] [1] [] 1 ![4, 1, 64]
  scatter_S50000x4x64_S800000x1_S800000x4x64_12_0_0_1_wf : ScatterDims.WF S50000x4x64 S800000x1 S800000x4x64 [1, 2] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x10000x64.size a ≤ S4x50000x64.size a
  hwx0_0 : ∀ i : grid0.Coords, EltTy.bits .f32 = 32 ∨ (Rect.block (s := S4x50000x64) S1x10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S4x64x64.size a
  hwx0_1 : ∀ i : grid0.Coords, EltTy.bits .f32 = 32 ∨ (Rect.block (s := S4x64x64) S1x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x10000x64.size a ≤ S4x4x50000x64.size a
  hwx0_2 : ∀ i : grid0.Coords, EltTy.bits .f32 = 32 ∨ (Rect.block (s := S4x4x50000x64) S1x1x10000x64.size (cc0_transform_2 i) (hinb0_2 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S4x50000x64_S800000x1_S4x800000x64_02_1_n_n_1_1_4164 : GatherDims S4x50000x64 S800000x1 S4x800000x64 where
  offsetDims := [0, 2]
  collapsedSliceDims := [1]
  operandBatchingDims := []
  startIndicesBatchingDims := []
  startIndexMap := [1]
  indexVectorDim := 1
  sliceSizes := ![4, 1, 64]
  wf := gather_S4x50000x64_S800000x1_S4x800000x64_02_1_n_n_1_1_4164_wf
def scatter_S50000x4x64_S800000x1_S800000x4x64_12_0_0_1 : ScatterDims S50000x4x64 S800000x1 S800000x4x64 where
  updateWindowDims := [1, 2]
  insertedWindowDims := [0]
  scatterDimsToOperandDims := [0]
  indexVectorDim := 1
  wf := scatter_S50000x4x64_S800000x1_S800000x4x64_12_0_0_1_wf

abbrev win0_0 : Pipeline.Window sig grid0 :=
  Pipeline.Window.ofSpec (Memref.whole main_arg0) S1x10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x50000x64 : Shape := ⟨3, ![4, 50000, 64]⟩
abbrev S4x800000 : Shape := ⟨2, ![4, 800000]⟩
abbrev S4x64x64 : Shape := ⟨3, ![4, 64, 64]⟩
abbrev S64 : Shape := ⟨1, ![64]⟩
abbrev S_ : Shape := ⟨0, ![]⟩
abbrev S1x64x64 : Shape := ⟨3, ![1, 64, 64]⟩
abbrev S64x64 : Shape := ⟨2, ![64, 64]⟩
abbrev S1x800000 : Shape := ⟨2, ![1, 800000]⟩
abbrev S800000 : Shape := ⟨1, ![800000]⟩
abbrev S800000x1 : Shape := ⟨2, ![800000, 1]⟩
abbrev S4x800000x64 : Shape := ⟨3, ![4, 800000, 64]⟩
abbrev S1x800000x1 : Shape := ⟨3, ![1, 800000, 1]⟩
abbrev S800000x4x64 : Shape := ⟨3, ![800000, 4, 64]⟩
abbrev S50000x4x64 : Shape := ⟨3, ![50000, 4, 64]⟩
abbrev S1x1x64 : Shape := ⟨3, ![1, 1, 64]⟩

abbrev nBuf : Space → Nat
  | .hbm => 126
  | .vmem => 0
  | .smem => 0
  | _ => 0

abbrev bufTy : (tb : Table) → Fin (tcTables nBuf tb) → BufTy
  | .hbm, ⟨0, _⟩ => ⟨S4x50000x64, .f32⟩
  | .hbm, ⟨1, _⟩ => ⟨S4x800000, .i32⟩
  | .hbm, ⟨2, _⟩ => ⟨S4x800000, .i32⟩
  | .hbm, ⟨3, _⟩ => ⟨S4x800000, .f32⟩
  | .hbm, ⟨4, _⟩ => ⟨S4x64x64, .f32⟩
  | .hbm, ⟨5, _⟩ => ⟨S64, .f32⟩
  | .hbm, ⟨6, _⟩ => ⟨S_, .f32⟩
  | .hbm, ⟨7, _⟩ => ⟨S4x50000x64, .f32⟩
  | .hbm, ⟨8, _⟩ => ⟨S1x64x64, .f32⟩
  | .hbm, ⟨9, _⟩ => ⟨S64x64, .f32⟩
  | .hbm, ⟨10, _⟩ => ⟨S4x50000x64, .f32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S4x800000x64, .f32⟩
  | .hbm, ⟨22, _⟩ => ⟨S1x800000, .f32⟩
  | .hbm, ⟨23, _⟩ => ⟨S800000, .f32⟩
  | .hbm, ⟨24, _⟩ => ⟨S1x800000x1, .f32⟩
  | .hbm, ⟨25, _⟩ => ⟨S4x800000x64, .f32⟩
  | .hbm, ⟨26, _⟩ => ⟨S4x800000x64, .f32⟩
  | .hbm, ⟨27, _⟩ => ⟨S800000x4x64, .f32⟩
  | .hbm, ⟨28, _⟩ => ⟨S1x800000, .i32⟩
  | .hbm, ⟨29, _⟩ => ⟨S800000, .i32⟩
  | .hbm, ⟨30, _⟩ => ⟨S_, .f32⟩
  | .hbm, ⟨31, _⟩ => ⟨S50000x4x64, .f32⟩
  | .hbm, ⟨32, _⟩ => ⟨S800000x1, .i32⟩
  | .hbm, ⟨33, _⟩ => ⟨S50000x4x64, .f32⟩
  | .hbm, ⟨34, _⟩ => ⟨S4x50000x64, .f32⟩
  | .hbm, ⟨35, _⟩ => ⟨S4x50000x64, .f32⟩
  | .hbm, ⟨36, _⟩ => ⟨S1x64x64, .f32⟩
  | .hbm, ⟨37, _⟩ => ⟨S64x64, .f32⟩
  | .hbm, ⟨38, _⟩ => ⟨S4x50000x64, .f32⟩
  | .hbm, ⟨39, _⟩ => ⟨S1x800000, .i32⟩
  | .hbm, ⟨40, _⟩ => ⟨S800000, .i32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S4x800000x64, .f32⟩
  | .hbm, ⟨50, _⟩ => ⟨S1x800000, .f32⟩
  | .hbm, ⟨51, _⟩ => ⟨S800000, .f32⟩
  | .hbm, ⟨52, _⟩ => ⟨S1x800000x1, .f32⟩
  | .hbm, ⟨53, _⟩ => ⟨S4x800000x64, .f32⟩
  | .hbm, ⟨54, _⟩ => ⟨S4x800000x64, .f32⟩
  | .hbm, ⟨55, _⟩ => ⟨S800000x4x64, .f32⟩
  | .hbm, ⟨56, _⟩ => ⟨S1x800000, .i32⟩
  | .hbm, ⟨57, _⟩ => ⟨S800000, .i32⟩
  | .hbm, ⟨58, _⟩ => ⟨S_, .f32⟩
  | .hbm, ⟨59, _⟩ => ⟨S50000x4x64, .f32⟩
  | .hbm, ⟨60, _⟩ => ⟨S800000x1, .i32⟩
  | .hbm, ⟨61, _⟩ => ⟨S50000x4x64, .f32⟩
  | .hbm, ⟨62, _⟩ => ⟨S4x50000x64, .f32⟩
  | .hbm, ⟨63, _⟩ => ⟨S4x50000x64, .f32⟩
  | .hbm, ⟨64, _⟩ => ⟨S1x64x64, .f32⟩
  | .hbm, ⟨65, _⟩ => ⟨S64x64, .f32⟩
  | .hbm, ⟨66, _⟩ => ⟨S4x50000x64, .f32⟩
  | .hbm, ⟨67, _⟩ => ⟨S1x800000, .i32⟩
  | .hbm, ⟨68, _⟩ => ⟨S800000, .i32⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S4x800000x64, .f32⟩
  | .hbm, ⟨78, _⟩ => ⟨S1x800000, .f32⟩
  | .hbm, ⟨79, _⟩ => ⟨S800000, .f32⟩
  | .hbm, ⟨80, _⟩ => ⟨S1x800000x1, .f32⟩
  | .hbm, ⟨81, _⟩ => ⟨S4x800000x64, .f32⟩
  | .hbm, ⟨82, _⟩ => ⟨S4x800000x64, .f32⟩
  | .hbm, ⟨83, _⟩ => ⟨S800000x4x64, .f32⟩
  | .hbm, ⟨84, _⟩ => ⟨S1x800000, .i32⟩
  | .hbm, ⟨85, _⟩ => ⟨S800000, .i32⟩
  | .hbm, ⟨86, _⟩ => ⟨S_, .f32⟩
  | .hbm, ⟨87, _⟩ => ⟨S50000x4x64, .f32⟩
  | .hbm, ⟨88, _⟩ => ⟨S800000x1, .i32⟩
  | .hbm, ⟨89, _⟩ => ⟨S50000x4x64, .f32⟩
  | .hbm, ⟨90, _⟩ => ⟨S4x50000x64, .f32⟩
  | .hbm, ⟨91, _⟩ => ⟨S4x50000x64, .f32⟩
  | .hbm, ⟨92, _⟩ => ⟨S1x64x64, .f32⟩
  | .hbm, ⟨93, _⟩ => ⟨S64x64, .f32⟩
  | .hbm, ⟨94, _⟩ => ⟨S4x50000x64, .f32⟩
  | .hbm, ⟨95, _⟩ => ⟨S1x800000, .i32⟩
  | .hbm, ⟨96, _⟩ => ⟨S800000, .i32⟩
  | .hbm, ⟨97, _⟩ => ⟨S_, .i32⟩
  | .hbm, ⟨98, _⟩ => ⟨S800000, .i32⟩
  | .hbm, ⟨99, _⟩ => ⟨S800000, .i1⟩
  | .hbm, ⟨100, _⟩ => ⟨S_, .i32⟩
  | .hbm, ⟨101, _⟩ => ⟨S800000, .i32⟩
  | .hbm, ⟨102, _⟩ => ⟨S800000, .i32⟩
  | .hbm, ⟨103, _⟩ => ⟨S800000, .i32⟩
  | .hbm, ⟨104, _⟩ => ⟨S800000x1, .i32⟩
  | .hbm, ⟨105, _⟩ => ⟨S4x800000x64, .f32⟩
  | .hbm, ⟨106, _⟩ => ⟨S1x800000, .f32⟩
  | .hbm, ⟨107, _⟩ => ⟨S800000, .f32⟩
  | .hbm, ⟨108, _⟩ => ⟨S1x800000x1, .f32⟩
  | .hbm, ⟨109, _⟩ => ⟨S4x800000x64, .f32⟩
  | .hbm, ⟨110, _⟩ => ⟨S4x800000x64, .f32⟩
  | .hbm, ⟨111, _⟩ => ⟨S800000x4x64, .f32⟩
  | .hbm, ⟨112, _⟩ => ⟨S1x800000, .i32⟩
  | .hbm, ⟨113, _⟩ => ⟨S800000, .i32⟩
  | .hbm, ⟨114, _⟩ => ⟨S_, .f32⟩
  | .hbm, ⟨115, _⟩ => ⟨S50000x4x64, .f32⟩
  | .hbm, ⟨116, _⟩ => ⟨S800000x1, .i32⟩
  | .hbm, ⟨117, _⟩ => ⟨S50000x4x64, .f32⟩
  | .hbm, ⟨118, _⟩ => ⟨S4x50000x64, .f32⟩
  | .hbm, ⟨119, _⟩ => ⟨S4x50000x64, .f32⟩
  | .hbm, ⟨120, _⟩ => ⟨S1x1x64, .f32⟩
  | .hbm, ⟨121, _⟩ => ⟨S4x50000x64, .f32⟩
  | .hbm, ⟨122, _⟩ => ⟨S4x50000x64, .f32⟩
  | .hbm, ⟨123, _⟩ => ⟨S_, .f32⟩
  | .hbm, ⟨124, _⟩ => ⟨S4x50000x64, .f32⟩
  | .hbm, ⟨125, _⟩ => ⟨S4x50000x64, .f32⟩
  | _, _ => ⟨S4x50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_2 : Ref sig .tc := ⟨.hbm, 41, rfl⟩
abbrev main_v31 : Ref sig .tc := ⟨.hbm, 42, rfl⟩
abbrev main_v32 : Ref sig .tc := ⟨.hbm, 43, rfl⟩
abbrev main_c_3 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_4 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_c_5 : Ref sig .tc := ⟨.hbm, 69, rfl⟩
abbrev main_v56 : Ref sig .tc := ⟨.hbm, 70, rfl⟩
abbrev main_v57 : Ref sig .tc := ⟨.hbm, 71, rfl⟩
abbrev main_c_6 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_cst_7 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_c_8 : Ref sig .tc := ⟨.hbm, 97, rfl⟩
abbrev main_v81 : Ref sig .tc := ⟨.hbm, 98, rfl⟩
abbrev main_v82 : Ref sig .tc := ⟨.hbm, 99, rfl⟩
abbrev main_c_9 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_cst_10 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_call0_cst : Ref sig .tc := ⟨.hbm, 123, rfl⟩
abbrev main_call0_v0 : Ref sig .tc := ⟨.hbm, 124, rfl⟩
abbrev main_v104 : Ref sig .tc := ⟨.hbm, 125, rfl⟩

abbrev nD : Nat := 1
abbrev τ : Topo := Topo.v7x

variable {F : FTy → Type} [FloatOps F]

class Facts₀ : Prop where
  bcast_S_S4x50000x64 : S_.BroadcastsInDim S4x50000x64 (![] : Fin 0 → Fin S4x50000x64.rank)
  slices_S4x64x64_S1x64x64_0_0_0 : S4x64x64.Slices ![0, 0, 0] S1x64x64
  shapeCasts_S1x64x64_S64x64 : S1x64x64.ShapeCasts S64x64
  slices_S4x800000_S1x800000_0_0 : S4x800000.Slices ![0, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  bcast_S800000_S1x800000x1_1 : S800000.BroadcastsInDim S1x800000x1 (![1] : Fin 1 → Fin S1x800000x1.rank)
  bcast_S1x800000x1_S4x800000x64_0_1_2 : S1x800000x1.BroadcastsInDim S4x800000x64 (![0, 1, 2] : Fin 3 → Fin S4x800000x64.rank)
  transposes_S4x800000x64_S800000x4x64_1_0_2 : S4x800000x64.Transposes [1, 0, 2] S800000x4x64
  bcast_S_S50000x4x64 : S_.BroadcastsInDim S50000x4x64 (![] : Fin 0 → Fin S50000x4x64.rank)
  transposes_S50000x4x64_S4x50000x64_1_0_2 : S50000x4x64.Transposes [1, 0, 2] S4x50000x64
  slices_S4x64x64_S1x64x64_1_0_0 : S4x64x64.Slices ![1, 0, 0] S1x64x64
  slices_S4x800000_S1x800000_1_0 : S4x800000.Slices ![1, 0] S1x800000
  slices_S4x64x64_S1x64x64_2_0_0 : S4x64x64.Slices ![2, 0, 0] S1x64x64
  slices_S4x800000_S1x800000_2_0 : S4x800000.Slices ![2, 0] S1x800000
  slices_S4x64x64_S1x64x64_3_0_0 : S4x64x64.Slices ![3, 0, 0] S1x64x64
  slices_S4x800000_S1x800000_3_0 : S4x800000.Slices ![3, 0] S1x800000
  bcast_S64_S1x1x64_2 : S64.BroadcastsInDim S1x1x64 (![2] : Fin 1 → Fin S1x1x64.rank)
  bcast_S1x1x64_S4x50000x64_0_1_2 : S1x1x64.BroadcastsInDim S4x50000x64 (![0, 1, 2] : Fin 3 → Fin S4x50000x64.rank)
  dot_S4x50000x64_S64x64_S4x50000x64_2_0_01_1_n_n_wf : DotDims.WF S4x50000x64 S64x64 S4x50000x64 [2] [0] [0, 1] [1] [] []
  gather_S4x50000x64_S800000x1_S4x800000x64_02_1_n_n_1_1_4164_wf : GatherDims.WF S4x50000x64 S800000x1 S4x800000x64 [0, 2] [1] [] [1] [] 1 ![4, 1, 64]
  scatter_S50000x4x64_S800000x1_S800000x4x64_12_0_0_1_wf : ScatterDims.WF S50000x4x64 S800000x1 S800000x4x64 [1, 2] [0] [0] 1

variable [Facts₀]

def dot_S4x50000x64_S64x64_S4x50000x64_2_0_01_1_n_n : DotDims S4x50000x64 S64x64 S4x50000x64 where
  lhsContracting := [2]
  rhsContracting := [0]
  lhsNonContracting := [0, 1]
  rhsNonContracting := [1]
  lhsBatch := []
  rhsBatch := []
  wf := dot_S4x50000x64_S64x64_S4x50000x64_2_0_01_1_n_n_wf
def gather_S4x50000x64_S800000x1_S4x800000x64_02_1_n_n_1_1_4164 : GatherDims S4x50000x64 S800000x1 S4x800000x64 where
  offsetDims := [0, 2]
  collapsedSliceDims := [1]
  operandBatchingDims := []
  startIndicesBatchingDims := []
  startIndexMap := [1]
  indexVectorDim := 1
  sliceSizes := ![4, 1, 64]
  wf := gather_S4x50000x64_S800000x1_S4x800000x64_02_1_n_n_1_1_4164_wf
def scatter_S50000x4x64_S800000x1_S800000x4x64_12_0_0_1 : ScatterDims S50000x4x64 S800000x1 S800000x4x64 where
  updateWindowDims := [1, 2]
  insertedWindowDims := [0]
  scatterDimsToOperandDims := [0]
  indexVectorDim := 1
  wf := scatter_S50000x4x64_S800000x1_S800000x4x64_12_0_0_1_wf

class Facts : Prop extends Facts₀ where

variable [Facts]
-- ==== Proof.KernelAround.lean ====
/-
  The run of the printed program around its one pallas_call, and its frame.

  @main is the launch of the matmul kernel over an 80-point grid (4 batches × 5 row tiles × 4 supports) followed by
  116 host lines (the gather / scale / segment-sum of each support, the bias and the relu). Nothing precedes the
  launch, so the kernel finds every argument array as launched. The body at a grid point loads its x tile and its
  weight matrix whole, forms their product, and overwrites its whole output tile; the two input tiles are left in
  place. The host lines that follow write only buffers of their own (each line its one result buffer, none of which
  is an argument or an array the kernel stages), so every argument ends as it was launched, and the last line's
  buffer holds the host lines' composition applied to what the kernel left in its result array.
-/
import proofs.«112324_j5531917877260_1_alg».proof.Proof.Gen.Kernel.Launch
import proofs.«112324_j5531917877260_1_alg».proof.Proof.Gen.Kernel.Skeleton
import proofs.«112324_j5531917877260_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines after the launch -/

/-- The host lines that follow the launch, as the three consecutive stretches @main is printed in
    (59 and 54 lines of @main, then the 3 lines of the relu). -/
abbrev tailOps : List (List (HloOp τ sig (Elt F))) := [main_part0_ops0, main_part1_ops0, main_part1_ops1]

/-- Core `c`'s buffer contents when the kernel is launched: no host line precedes the launch. -/
abbrev entryVal (c : Dev nD) : Valuation τ sig (Elt F) :=
  StableHlo.after (List.flatten ([] : List (List (HloOp τ sig (Elt F))))) (fun b => m (c, b))
/-- The same read at a TensorCore reference. -/
abbrev entryAt (c : Dev nD) (b : Ref sig .tc) : Buf (Elt F) ((c : Thread nD τ).loc b) := entryVal m c (Proc.devRef .tc b)

/-- Every buffer is found by the kernel as launched. -/
theorem entryAt_eq (c : Dev nD) (b : Ref sig .tc) : entryAt m c b = m ((c : Thread nD τ).loc b) := rfl

/-- @main is the launch continued by the three stretches of host lines. -/
theorem main_around (𝒱₀ : Variants) : Pipeline.HMainK (Ix := Unit) (Name := ℕ) (U := UR sig nD τ) (Lvl := ℕ) cfgs 0 defs₀ 𝒱₀ m (main (F := F)) (entryAt m)
      (fun _ => Pipeline.chain ((tailOps (F := F)).map StableHlo.seq)) :=
  Pipeline.hmain_around cfgs 0 defs₀ 𝒱₀ m main [] tailOps (by trivial) (by trivial) main_chain_windows

/-- The buffers each stretch writes: one result buffer per line, in order. -/
abbrev written0 : List (Ref sig .tc) := [main_cst, main_v1, main_v2, main_v3, main_v4, main_v5, main_c, main_v6, main_v7, main_c_0, main_v8, main_v9, main_v10, main_v11, main_v12, main_v13, main_v14, main_v15, main_v16, main_v17, main_v18, main_v19, main_v20, main_cst_1, main_v21, main_v22, main_v23, main_v24, main_v25, main_v26, main_v27, main_v28, main_v29, main_c_2, main_v30, main_v31, main_c_3, main_v32, main_v33, main_v34, main_v35, main_v36, main_v37, main_v38, main_v39, main_v40, main_v41, main_v42, main_v43, main_v44, main_cst_4, main_v45, main_v46, main_v47, main_v48, main_v49, main_v50, main_v51, main_v52]
abbrev written1 : List (Ref sig .tc) := [main_v53, main_c_5, main_v54, main_v55, main_c_6, main_v56, main_v57, main_v58, main_v59, main_v60, main_v61, main_v62, main_v63, main_v64, main_v65, main_v66, main_v67, main_v68, main_cst_7, main_v69, main_v70, main_v71, main_v72, main_v73, main_v74, main_v75, main_v76, main_v77, main_c_8, main_v78, main_v79, main_c_9, main_v80, main_v81, main_v82, main_v83, main_v84, main_v85, main_v86, main_v87, main_v88, main_v89, main_v90, main_v91, main_v92, main_cst_10, main_v93, main_v94, main_v95, main_v96, main_v97, main_v98, main_v99, main_v100]
abbrev written2 : List (Ref sig .tc) := [main_call0_cst, main_call0_v0, main_v101]

local macro "writes_in_list" : tactic => `(tactic| (
  simp only [List.Forall]
  repeat' apply And.intro
  all_goals (
    simp only [StableHlo.nullary_writes, StableHlo.unary_writes, StableHlo.binary_writes, StableHlo.ternary_writes,
      StableHlo.reshape_writes, Finset.singleton_subset_iff, List.mem_toFinset]
    exact List.mem_map_of_mem (by decide))))

theorem writes0 : (main_part0_ops0 : List (HloOp τ sig (Elt F))).Forall fun op => op.writes ⊆ (written0.map (Proc.devRef (τ := τ) .tc)).toFinset := by
  writes_in_list
theorem writes1 : (main_part1_ops0 : List (HloOp τ sig (Elt F))).Forall fun op => op.writes ⊆ (written1.map (Proc.devRef (τ := τ) .tc)).toFinset := by
  writes_in_list
theorem writes2 : (main_part1_ops1 : List (HloOp τ sig (Elt F))).Forall fun op => op.writes ⊆ (written2.map (Proc.devRef (τ := τ) .tc)).toFinset := by
  writes_in_list

theorem fresh0 : (main_part0_ops0 : List (HloOp τ sig (Elt F))).Forall fun op => op.fresh = ∅ := by
  simp only [List.Forall]; repeat' constructor
theorem fresh1 : (main_part1_ops0 : List (HloOp τ sig (Elt F))).Forall fun op => op.fresh = ∅ := by
  simp only [List.Forall]; repeat' constructor
theorem fresh2 : (main_part1_ops1 : List (HloOp τ sig (Elt F))).Forall fun op => op.fresh = ∅ := by
  simp only [List.Forall]; repeat' constructor

/-- A line whose writes lie in a list of references writes no reference outside the list. -/
theorem not_written {W : List (Ref sig .tc)} {r : Ref sig .tc} {op : HloOp τ sig (Elt F)}
    (h : op.writes ⊆ (W.map (Proc.devRef (τ := τ) .tc)).toFinset) (hr : r ∉ W) : Proc.devRef .tc r ∉ op.writes := fun hb => by
  obtain ⟨y, hy, he⟩ := List.mem_map.mp (List.mem_toFinset.mp (h hb))
  exact hr (Proc.devRef_injective _ he ▸ hy)

/-- The host lines touch unscoped TensorCore buffers only. -/
theorem tail_within : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp main_part0_ops0_sub) op hop)
  · exact Pipeline.sub_ucRefs op ((List.forall_iff_forall_mem.mp main_part1_ops0_sub) op hop)
  · exact Pipeline.sub_ucRefs op ((List.forall_iff_forall_mem.mp main_part1_ops1_sub) op hop)

/-- They allocate nothing. -/
theorem tail_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp fresh0) op hop
  · exact (List.forall_iff_forall_mem.mp fresh1) op hop
  · exact (List.forall_iff_forall_mem.mp fresh2) op hop

/-- A reference none of the three stretches writes is written by no host line. -/
theorem tail_not_written (r : Ref sig .tc) (h0 : r ∉ written0) (h1 : r ∉ written1) (h2 : r ∉ written2) :
    ∀ ops ∈ (tailOps : List (List (HloOp τ sig (Elt F)))), ∀ op ∈ ops, Proc.devRef .tc r ∉ op.writes := by
  intro ops hops op hop
  simp only [List.mem_cons, List.mem_nil_iff, or_false] at hops
  rcases hops with rfl | rfl | rfl
  · exact not_written ((List.forall_iff_forall_mem.mp writes0) op hop) h0
  · exact not_written ((List.forall_iff_forall_mem.mp writes1) op hop) h1
  · exact not_written ((List.forall_iff_forall_mem.mp writes2) op hop) h2

/-- No host line writes an array the kernel stages (x, the weights, the kernel's result). -/
theorem tail_keeps : ∀ ops ∈ (tailOps : List (List (HloOp τ sig (Elt F)))), ∀ op ∈ ops,
    ∀ w, Proc.devRef .tc (Pipeline.arrRef spec0 w) ∉ op.writes := by
  intro ops hops op hop w
  fin_cases w
  · exact tail_not_written main_arg0 (by decide) (by decide) (by decide) ops hops op hop
  · exact tail_not_written main_arg4 (by decide) (by decide) (by decide) ops hops op hop
  · exact tail_not_written main_v0 (by decide) (by decide) (by decide) ops hops op hop

/-- A buffer that is no staged array and that no host line writes ends as launched. -/
theorem tail_kept (dats : (p : Fin 1) → (c : Dev nD) → Dat τ (Elt F) Unit ℕ (UR sig nD τ) ℕ (cfgs p) c) (c : Dev nD)
    (r : Ref sig .tc) (ha : ∀ w, Pipeline.arrRef spec0 w ≠ r) (h0 : r ∉ written0) (h1 : r ∉ written1) (h2 : r ∉ written2) :
    Pipeline.afterTail₀ cfgs dats 0 (entryVal m) tailOps c r = m ((c : Thread nD τ).loc r) := by
  unfold Pipeline.afterTail₀
  rw [StableHlo.after_of_forall_not_mem (b := Proc.devRef .tc r) _ _ (fun op hop => by
      obtain ⟨ops, hops, hop'⟩ := List.mem_flatten.mp hop
      exact tail_not_written r h0 h1 h2 ops hops op hop'),
    Pipeline.withArrays_of_ne _ c (entryVal m c) _ r ha]
  rfl

/-! ## The windows' blocks -/

/-- Window `w`'s block at grid point `t`, read off its array as launched. -/
def blockAt (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-- The x tile's staging buffer holds the tile of the current point at every point, fetched there or not: the tile's
    index does not move along the innermost (support) axis, and the body leaves the tile in place. -/
theorem x_before {c : Dev nD} (dat : Dat τ (Elt F) Unit ℕ (UR sig nD τ) ℕ cfg0 c) (hA : dat.A 0 = entryAt m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The weight matrix's staging buffer likewise. -/
theorem w_before {c : Dev nD} (dat : Dat τ (Elt F) Unit ℕ (UR sig nD τ) ℕ cfg0 c) (hA : dat.A 1 = entryAt m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves in the output tile -/

abbrev xRect : Rect S1x10000x64 := Rect.unit (s := S1x10000x64) ![0, 0, 0] S1x10000x64.size inb_S1x10000x64_S1x10000x64_0_0_0
abbrev wRect : Rect S1x64x64 := Rect.unit (s := S1x64x64) ![0, 0, 0] S1x64x64.size inb_S1x64x64_S1x64x64_0_0_0
abbrev oRect : Rect S1x1x10000x64 := Rect.unit (s := S1x1x10000x64) ![0, 0, 0, 0] S1x1x10000x64.size inb_S1x1x10000x64_S1x1x10000x64_0_0_0_0

/-- The output tile after the body: its one store, of the product of the x tile and the weight matrix, over the whole tile. -/
def tileOut (x : Vec F S1x10000x64 .f32) (w : Vec F S1x64x64 .f32) : Vec F S1x1x10000x64 .f32 :=
  View.canon [⟨oRect, k0_pay1 (View.ld x xRect) (View.ld w wRect)⟩]

/-- The one store covers the tile. -/
theorem store_covers (p : Vec F S1x1x10000x64 .f32) (y : S1x1x10000x64.Idx) :
    ∃ pc ∈ ([⟨oRect, p⟩] : List (View.Piece (Elt F) S1x1x10000x64 .f32)), y ∈ pc.1.set :=
  View.cover_of_tiled [⟨oRect, p⟩] S1x1x10000x64.size (by rfl) y

set_option maxHeartbeats 1000000 in
/-- The body on whole staging buffers — the two inputs' at known contents, the output's at anything — runs to its
    continuation with the inputs' as they were and the output's at `tileOut` of them. -/
theorem body_triple (c : Dev nD) (E : Set ℕ) (i : grid0.Coords)
    (arg3 : Memref sig .tc .vmem S1x10000x64 .f32) (harg3 : arg3.IsWhole) (arg4 : Memref sig .tc .vmem S1x64x64 .f32) (harg4 : arg4.IsWhole)
    (arg5 : Memref sig .tc .vmem S1x1x10000x64 .f32) (harg5 : arg5.IsWhole)
    (x : Vec F S1x10000x64 .f32) (w : Vec F S1x64x64 .f32) (K : PUnit → sProp 𝕄) :
    iprop(owns (c : Thread nD τ) arg3 fullShare x ∗ owns (c : Thread nD τ) arg4 fullShare w ∗ (∃ d, owns (c : Thread nD τ) arg5 fullShare d)
        ∗ (iprop(owns (c : Thread nD τ) arg3 fullShare x ∗ owns (c : Thread nD τ) arg4 fullShare w ∗ owns (c : Thread nD τ) arg5 fullShare (tileOut x w)) -∗ K ⟨⟩))
      ⊢ wp frame (wpE (defs₀ (F := F)) Variants.none c none) E (cc0__matmul_kernel i arg3 harg3 arg4 harg4 arg5 harg5) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (store_covers _)

/-! ## The proof data of the launch -/

/-- On core `c`: the arrays as launched; after the body at point `t` the two inputs' buffers at their blocks and the
    output's at `tileOut` of them; the kernel keeps nothing of its own between points and owes nothing. -/
def dats (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => blockAt m c 1 t
    | ⟨2, _⟩ => tileOut (blockAt m c 0 t) (blockAt m c 1 t)
  Φ _ := Pipeline.ΦA spec0 c
  q _ := fullShare
  owed _ := 0

theorem A_eq (c : Dev nD) (w : Fin cfg0.W) : (dats m 0 c).A w = entryAt m c (Pipeline.arrRef spec0 w) := by
  dsimp only [dats]

theorem after_x (c : Dev nD) (t : Fin cfg0.N) : (dats m 0 c).after 0 t = blockAt m c 0 t := by dsimp only [dats]
theorem after_w (c : Dev nD) (t : Fin cfg0.N) : (dats m 0 c).after 1 t = blockAt m c 1 t := by dsimp only [dats]
theorem after_o (c : Dev nD) (t : Fin cfg0.N) : (dats m 0 c).after 2 t = tileOut (blockAt m c 0 t) (blockAt m c 1 t) := by dsimp only [dats]

theorem before_x (c : Dev nD) (t : Fin cfg0.N) (d) : (dats m 0 c).before 0 t d = blockAt m c 0 t :=
  x_before m (dats m 0 c) (A_eq m c 0) (after_x m c) t d
theorem before_w (c : Dev nD) (t : Fin cfg0.N) (d) : (dats m 0 c).before 1 t d = blockAt m c 1 t :=
  w_before m (dats m 0 c) (A_eq m c 1) (after_w m c) t d

/-! ## The body at a grid point -/

def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- At any point the inputs' buffers hold their blocks, so the body's triple applies; what the kernel does not
    touch passes through. -/
theorem body_at (c : Dev nD) (t : Fin cfg0.N) :
    pointPre m c t ⊢ wp frame (wpE (defs₀ (F := F)) Variants.none c none) Set.univ (bodyAt0 t) (fun _ => pointPost m c t) := by
  unfold pointPre pointPost bodyAt0
  simp only [before_x, before_w]
  rw [show (dats m 0 c).Φ t.succ = (dats m 0 c).Φ t.castSucc from rfl,
    show (dats m 0 c).owesAt () t.succ = (dats m 0 c).owesAt () t.castSucc from rfl,
    after_x, after_w, after_o]
  iintro ⟨HΦ, Ho, ⟨%d0, H0⟩, ⟨%d1, H1⟩, ⟨%d2, H2⟩⟩
  iapply (body_triple c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact body_at m c t

/-! ## The run -/

set_option backward.isDefEq.respectTransparency.types false in
/-- Every weakly fair execution of @main terminates; the staged arrays end at what the launch leaves in them and every
    other unscoped buffer at what the host lines leave in it. -/
theorem run_main : θ_run defs (onTc (τ := τ) (main (F := F))) (s₀ m ρ)
    (Pipeline.FramePost cfgs (dats m) 0 (Pipeline.afterTail₀ cfgs (dats m) 0 (entryVal m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entryVal m) (opss := tailOps) (hsub := tail_within) (hfresh := tail_fresh) (hkeep := tail_keeps)
    (hmain := main_around m Variants.none) (hA := A_eq m) (hΦ := fun _ _ => rfl)

/-- In a final state of the run the six argument arrays are as launched: x and the weights are staged inputs,
    which the launch leaves as it found them; the index, value and bias arrays bypass the launch and no host line
    writes them. -/
theorem args_kept (r : PUnit × MemSt nD τ sig (Elt F))
    (h : Pipeline.FramePost cfgs (dats m) 0 (Pipeline.afterTail₀ cfgs (dats m) 0 (entryVal m) tailOps) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).1 0).trans (((dats m 0 c).arrAt_in 0 rfl _).trans (A_eq m c 0)),
   ((h c).2 main_arg1 (Pipeline.mem_restRefs_of main_arg1 (by decide) (by decide))).trans
     (tail_kept m (dats m) c main_arg1 (by decide) (by decide) (by decide) (by decide)),
   ((h c).2 main_arg2 (Pipeline.mem_restRefs_of main_arg2 (by decide) (by decide))).trans
     (tail_kept m (dats m) c main_arg2 (by decide) (by decide) (by decide) (by decide)),
   ((h c).2 main_arg3 (Pipeline.mem_restRefs_of main_arg3 (by decide) (by decide))).trans
     (tail_kept m (dats m) c main_arg3 (by decide) (by decide) (by decide) (by decide)),
   ((h c).1 1).trans (((dats m 0 c).arrAt_in 1 rfl _).trans (A_eq m c 1)),
   ((h c).2 main_arg5 (Pipeline.mem_restRefs_of main_arg5 (by decide) (by decide))).trans
     (tail_kept m (dats m) c main_arg5 (by decide) (by decide) (by decide) (by decide))⟩

/-- The frame: every weakly fair execution terminates and the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => args_kept m r h c) (run_main m ρ)

end Cert.Kernel.Around

end
-- ==== Proof.KernelIdealAround.lean ====
/-
  The run of the printed program around its one pallas_call, and its frame.

  @main is the launch of the matmul kernel over an 80-point grid (4 batches × 5 row tiles × 4 supports) followed by
  116 host lines (the gather / scale / segment-sum of each support, the bias and the relu). Nothing precedes the
  launch, so the kernel finds every argument array as launched. The body at a grid point loads its x tile and its
  weight matrix whole, forms their product, and overwrites its whole output tile; the two input tiles are left in
  place. The host lines that follow write only buffers of their own (each line its one result buffer, none of which
  is an argument or an array the kernel stages), so every argument ends as it was launched, and the last line's
  buffer holds the host lines' composition applied to what the kernel left in its result array.
-/
import proofs.«112324_j5531917877260_1_alg».proof.Proof.Gen.KernelIdeal.Launch
import proofs.«112324_j5531917877260_1_alg».proof.Proof.Gen.KernelIdeal.Skeleton
import proofs.«112324_j5531917877260_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines after the launch -/

/-- The host lines that follow the launch, as the three consecutive stretches @main is printed in
    (59 and 54 lines of @main, then the 3 lines of the relu). -/
abbrev tailOps : List (List (HloOp τ sig (Elt F))) := [main_part0_ops0, main_part1_ops0, main_part1_ops1]

/-- Core `c`'s buffer contents when the kernel is launched: no host line precedes the launch. -/
abbrev entryVal (c : Dev nD) : Valuation τ sig (Elt F) :=
  StableHlo.after (List.flatten ([] : List (List (HloOp τ sig (Elt F))))) (fun b => m (c, b))
/-- The same read at a TensorCore reference. -/
abbrev entryAt (c : Dev nD) (b : Ref sig .tc) : Buf (Elt F) ((c : Thread nD τ).loc b) := entryVal m c (Proc.devRef .tc b)

/-- Every buffer is found by the kernel as launched. -/
theorem entryAt_eq (c : Dev nD) (b : Ref sig .tc) : entryAt m c b = m ((c : Thread nD τ).loc b) := rfl

/-- @main is the launch continued by the three stretches of host lines. -/
theorem main_around (𝒱₀ : Variants) : Pipeline.HMainK (Ix := Unit) (Name := ℕ) (U := UR sig nD τ) (Lvl := ℕ) cfgs 0 defs₀ 𝒱₀ m (main (F := F)) (entryAt m)
      (fun _ => Pipeline.chain ((tailOps (F := F)).map StableHlo.seq)) :=
  Pipeline.hmain_around cfgs 0 defs₀ 𝒱₀ m main [] tailOps (by trivial) (by trivial) main_chain_windows

/-- The buffers each stretch writes: one result buffer per line, in order. -/
abbrev written0 : List (Ref sig .tc) := [main_cst, main_v1, main_v2, main_v3, main_v4, main_v5, main_c, main_v6, main_v7, main_c_0, main_v8, main_v9, main_v10, main_v11, main_v12, main_v13, main_v14, main_v15, main_v16, main_v17, main_v18, main_v19, main_v20, main_cst_1, main_v21, main_v22, main_v23, main_v24, main_v25, main_v26, main_v27, main_v28, main_v29, main_c_2, main_v30, main_v31, main_c_3, main_v32, main_v33, main_v34, main_v35, main_v36, main_v37, main_v38, main_v39, main_v40, main_v41, main_v42, main_v43, main_v44, main_cst_4, main_v45, main_v46, main_v47, main_v48, main_v49, main_v50, main_v51, main_v52]
abbrev written1 : List (Ref sig .tc) := [main_v53, main_c_5, main_v54, main_v55, main_c_6, main_v56, main_v57, main_v58, main_v59, main_v60, main_v61, main_v62, main_v63, main_v64, main_v65, main_v66, main_v67, main_v68, main_cst_7, main_v69, main_v70, main_v71, main_v72, main_v73, main_v74, main_v75, main_v76, main_v77, main_c_8, main_v78, main_v79, main_c_9, main_v80, main_v81, main_v82, main_v83, main_v84, main_v85, main_v86, main_v87, main_v88, main_v89, main_v90, main_v91, main_v92, main_cst_10, main_v93, main_v94, main_v95, main_v96, main_v97, main_v98, main_v99, main_v100]
abbrev written2 : List (Ref sig .tc) := [main_call0_cst, main_call0_v0, main_v101]

local macro "writes_in_list" : tactic => `(tactic| (
  simp only [List.Forall]
  repeat' apply And.intro
  all_goals (
    simp only [StableHlo.nullary_writes, StableHlo.unary_writes, StableHlo.binary_writes, StableHlo.ternary_writes,
      StableHlo.reshape_writes, Finset.singleton_subset_iff, List.mem_toFinset]
    exact List.mem_map_of_mem (by decide))))

theorem writes0 : (main_part0_ops0 : List (HloOp τ sig (Elt F))).Forall fun op => op.writes ⊆ (written0.map (Proc.devRef (τ := τ) .tc)).toFinset := by
  writes_in_list
theorem writes1 : (main_part1_ops0 : List (HloOp τ sig (Elt F))).Forall fun op => op.writes ⊆ (written1.map (Proc.devRef (τ := τ) .tc)).toFinset := by
  writes_in_list
theorem writes2 : (main_part1_ops1 : List (HloOp τ sig (Elt F))).Forall fun op => op.writes ⊆ (written2.map (Proc.devRef (τ := τ) .tc)).toFinset := by
  writes_in_list

theorem fresh0 : (main_part0_ops0 : List (HloOp τ sig (Elt F))).Forall fun op => op.fresh = ∅ := by
  simp only [List.Forall]; repeat' constructor
theorem fresh1 : (main_part1_ops0 : List (HloOp τ sig (Elt F))).Forall fun op => op.fresh = ∅ := by
  simp only [List.Forall]; repeat' constructor
theorem fresh2 : (main_part1_ops1 : List (HloOp τ sig (Elt F))).Forall fun op => op.fresh = ∅ := by
  simp only [List.Forall]; repeat' constructor

/-- A line whose writes lie in a list of references writes no reference outside the list. -/
theorem not_written {W : List (Ref sig .tc)} {r : Ref sig .tc} {op : HloOp τ sig (Elt F)}
    (h : op.writes ⊆ (W.map (Proc.devRef (τ := τ) .tc)).toFinset) (hr : r ∉ W) : Proc.devRef .tc r ∉ op.writes := fun hb => by
  obtain ⟨y, hy, he⟩ := List.mem_map.mp (List.mem_toFinset.mp (h hb))
  exact hr (Proc.devRef_injective _ he ▸ hy)

/-- The host lines touch unscoped TensorCore buffers only. -/
theorem tail_within : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp main_part0_ops0_sub) op hop)
  · exact Pipeline.sub_ucRefs op ((List.forall_iff_forall_mem.mp main_part1_ops0_sub) op hop)
  · exact Pipeline.sub_ucRefs op ((List.forall_iff_forall_mem.mp main_part1_ops1_sub) op hop)

/-- They allocate nothing. -/
theorem tail_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp fresh0) op hop
  · exact (List.forall_iff_forall_mem.mp fresh1) op hop
  · exact (List.forall_iff_forall_mem.mp fresh2) op hop

/-- A reference none of the three stretches writes is written by no host line. -/
theorem tail_not_written (r : Ref sig .tc) (h0 : r ∉ written0) (h1 : r ∉ written1) (h2 : r ∉ written2) :
    ∀ ops ∈ (tailOps : List (List (HloOp τ sig (Elt F)))), ∀ op ∈ ops, Proc.devRef .tc r ∉ op.writes := by
  intro ops hops op hop
  simp only [List.mem_cons, List.mem_nil_iff, or_false] at hops
  rcases hops with rfl | rfl | rfl
  · exact not_written ((List.forall_iff_forall_mem.mp writes0) op hop) h0
  · exact not_written ((List.forall_iff_forall_mem.mp writes1) op hop) h1
  · exact not_written ((List.forall_iff_forall_mem.mp writes2) op hop) h2

/-- No host line writes an array the kernel stages (x, the weights, the kernel's result). -/
theorem tail_keeps : ∀ ops ∈ (tailOps : List (List (HloOp τ sig (Elt F)))), ∀ op ∈ ops,
    ∀ w, Proc.devRef .tc (Pipeline.arrRef spec0 w) ∉ op.writes := by
  intro ops hops op hop w
  fin_cases w
  · exact tail_not_written main_arg0 (by decide) (by decide) (by decide) ops hops op hop
  · exact tail_not_written main_arg4 (by decide) (by decide) (by decide) ops hops op hop
  · exact tail_not_written main_v0 (by decide) (by decide) (by decide) ops hops op hop

/-- A buffer that is no staged array and that no host line writes ends as launched. -/
theorem tail_kept (dats : (p : Fin 1) → (c : Dev nD) → Dat τ (Elt F) Unit ℕ (UR sig nD τ) ℕ (cfgs p) c) (c : Dev nD)
    (r : Ref sig .tc) (ha : ∀ w, Pipeline.arrRef spec0 w ≠ r) (h0 : r ∉ written0) (h1 : r ∉ written1) (h2 : r ∉ written2) :
    Pipeline.afterTail₀ cfgs dats 0 (entryVal m) tailOps c r = m ((c : Thread nD τ).loc r) := by
  unfold Pipeline.afterTail₀
  rw [StableHlo.after_of_forall_not_mem (b := Proc.devRef .tc r) _ _ (fun op hop => by
      obtain ⟨ops, hops, hop'⟩ := List.mem_flatten.mp hop
      exact tail_not_written r h0 h1 h2 ops hops op hop'),
    Pipeline.withArrays_of_ne _ c (entryVal m c) _ r ha]
  rfl

/-! ## The windows' blocks -/

/-- Window `w`'s block at grid point `t`, read off its array as launched. -/
def blockAt (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-- The x tile's staging buffer holds the tile of the current point at every point, fetched there or not: the tile's
    index does not move along the innermost (support) axis, and the body leaves the tile in place. -/
theorem x_before {c : Dev nD} (dat : Dat τ (Elt F) Unit ℕ (UR sig nD τ) ℕ cfg0 c) (hA : dat.A 0 = entryAt m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The weight matrix's staging buffer likewise. -/
theorem w_before {c : Dev nD} (dat : Dat τ (Elt F) Unit ℕ (UR sig nD τ) ℕ cfg0 c) (hA : dat.A 1 = entryAt m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves in the output tile -/

abbrev xRect : Rect S1x10000x64 := Rect.unit (s := S1x10000x64) ![0, 0, 0] S1x10000x64.size inb_S1x10000x64_S1x10000x64_0_0_0
abbrev wRect : Rect S1x64x64 := Rect.unit (s := S1x64x64) ![0, 0, 0] S1x64x64.size inb_S1x64x64_S1x64x64_0_0_0
abbrev oRect : Rect S1x1x10000x64 := Rect.unit (s := S1x1x10000x64) ![0, 0, 0, 0] S1x1x10000x64.size inb_S1x1x10000x64_S1x1x10000x64_0_0_0_0

/-- The output tile after the body: its one store, of the product of the x tile and the weight matrix, over the whole tile. -/
def tileOut (x : Vec F S1x10000x64 .f32) (w : Vec F S1x64x64 .f32) : Vec F S1x1x10000x64 .f32 :=
  View.canon [⟨oRect, k0_pay1 (View.ld x xRect) (View.ld w wRect)⟩]

/-- The one store covers the tile. -/
theorem store_covers (p : Vec F S1x1x10000x64 .f32) (y : S1x1x10000x64.Idx) :
    ∃ pc ∈ ([⟨oRect, p⟩] : List (View.Piece (Elt F) S1x1x10000x64 .f32)), y ∈ pc.1.set :=
  View.cover_of_tiled [⟨oRect, p⟩] S1x1x10000x64.size (by rfl) y

set_option maxHeartbeats 1000000 in
/-- The body on whole staging buffers — the two inputs' at known contents, the output's at anything — runs to its
    continuation with the inputs' as they were and the output's at `tileOut` of them. -/
theorem body_triple (c : Dev nD) (E : Set ℕ) (i : grid0.Coords)
    (arg3 : Memref sig .tc .vmem S1x10000x64 .f32) (harg3 : arg3.IsWhole) (arg4 : Memref sig .tc .vmem S1x64x64 .f32) (harg4 : arg4.IsWhole)
    (arg5 : Memref sig .tc .vmem S1x1x10000x64 .f32) (harg5 : arg5.IsWhole)
    (x : Vec F S1x10000x64 .f32) (w : Vec F S1x64x64 .f32) (K : PUnit → sProp 𝕄) :
    iprop(owns (c : Thread nD τ) arg3 fullShare x ∗ owns (c : Thread nD τ) arg4 fullShare w ∗ (∃ d, owns (c : Thread nD τ) arg5 fullShare d)
        ∗ (iprop(owns (c : Thread nD τ) arg3 fullShare x ∗ owns (c : Thread nD τ) arg4 fullShare w ∗ owns (c : Thread nD τ) arg5 fullShare (tileOut x w)) -∗ K ⟨⟩))
      ⊢ wp frame (wpE (defs₀ (F := F)) Variants.none c none) E (cc0__matmul_kernel i arg3 harg3 arg4 harg4 arg5 harg5) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (store_covers _)

/-! ## The proof data of the launch -/

/-- On core `c`: the arrays as launched; after the body at point `t` the two inputs' buffers at their blocks and the
    output's at `tileOut` of them; the kernel keeps nothing of its own between points and owes nothing. -/
def dats (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => blockAt m c 1 t
    | ⟨2, _⟩ => tileOut (blockAt m c 0 t) (blockAt m c 1 t)
  Φ _ := Pipeline.ΦA spec0 c
  q _ := fullShare
  owed _ := 0

theorem A_eq (c : Dev nD) (w : Fin cfg0.W) : (dats m 0 c).A w = entryAt m c (Pipeline.arrRef spec0 w) := by
  dsimp only [dats]

theorem after_x (c : Dev nD) (t : Fin cfg0.N) : (dats m 0 c).after 0 t = blockAt m c 0 t := by dsimp only [dats]
theorem after_w (c : Dev nD) (t : Fin cfg0.N) : (dats m 0 c).after 1 t = blockAt m c 1 t := by dsimp only [dats]
theorem after_o (c : Dev nD) (t : Fin cfg0.N) : (dats m 0 c).after 2 t = tileOut (blockAt m c 0 t) (blockAt m c 1 t) := by dsimp only [dats]

theorem before_x (c : Dev nD) (t : Fin cfg0.N) (d) : (dats m 0 c).before 0 t d = blockAt m c 0 t :=
  x_before m (dats m 0 c) (A_eq m c 0) (after_x m c) t d
theorem before_w (c : Dev nD) (t : Fin cfg0.N) (d) : (dats m 0 c).before 1 t d = blockAt m c 1 t :=
  w_before m (dats m 0 c) (A_eq m c 1) (after_w m c) t d

/-! ## The body at a grid point -/

def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- At any point the inputs' buffers hold their blocks, so the body's triple applies; what the kernel does not
    touch passes through. -/
theorem body_at (c : Dev nD) (t : Fin cfg0.N) :
    pointPre m c t ⊢ wp frame (wpE (defs₀ (F := F)) Variants.none c none) Set.univ (bodyAt0 t) (fun _ => pointPost m c t) := by
  unfold pointPre pointPost bodyAt0
  simp only [before_x, before_w]
  rw [show (dats m 0 c).Φ t.succ = (dats m 0 c).Φ t.castSucc from rfl,
    show (dats m 0 c).owesAt () t.succ = (dats m 0 c).owesAt () t.castSucc from rfl,
    after_x, after_w, after_o]
  iintro ⟨HΦ, Ho, ⟨%d0, H0⟩, ⟨%d1, H1⟩, ⟨%d2, H2⟩⟩
  iapply (body_triple c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact body_at m c t

/-! ## The run -/

set_option backward.isDefEq.respectTransparency.types false in
/-- Every weakly fair execution of @main terminates; the staged arrays end at what the launch leaves in them and every
    other unscoped buffer at what the host lines leave in it. -/
theorem run_main : θ_run defs (onTc (τ := τ) (main (F := F))) (s₀ m ρ)
    (Pipeline.FramePost cfgs (dats m) 0 (Pipeline.afterTail₀ cfgs (dats m) 0 (entryVal m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entryVal m) (opss := tailOps) (hsub := tail_within) (hfresh := tail_fresh) (hkeep := tail_keeps)
    (hmain := main_around m Variants.none) (hA := A_eq m) (hΦ := fun _ _ => rfl)

/-- In a final state of the run the six argument arrays are as launched: x and the weights are staged inputs,
    which the launch leaves as it found them; the index, value and bias arrays bypass the launch and no host line
    writes them. -/
theorem args_kept (r : PUnit × MemSt nD τ sig (Elt F))
    (h : Pipeline.FramePost cfgs (dats m) 0 (Pipeline.afterTail₀ cfgs (dats m) 0 (entryVal m) tailOps) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).1 0).trans (((dats m 0 c).arrAt_in 0 rfl _).trans (A_eq m c 0)),
   ((h c).2 main_arg1 (Pipeline.mem_restRefs_of main_arg1 (by decide) (by decide))).trans
     (tail_kept m (dats m) c main_arg1 (by decide) (by decide) (by decide) (by decide)),
   ((h c).2 main_arg2 (Pipeline.mem_restRefs_of main_arg2 (by decide) (by decide))).trans
     (tail_kept m (dats m) c main_arg2 (by decide) (by decide) (by decide) (by decide)),
   ((h c).2 main_arg3 (Pipeline.mem_restRefs_of main_arg3 (by decide) (by decide))).trans
     (tail_kept m (dats m) c main_arg3 (by decide) (by decide) (by decide) (by decide)),
   ((h c).1 1).trans (((dats m 0 c).arrAt_in 1 rfl _).trans (A_eq m c 1)),
   ((h c).2 main_arg5 (Pipeline.mem_restRefs_of main_arg5 (by decide) (by decide))).trans
     (tail_kept m (dats m) c main_arg5 (by decide) (by decide) (by decide) (by decide))⟩

/-- The frame: every weakly fair execution terminates and the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => args_kept m r h c) (run_main m ρ)

end Cert.KernelIdeal.Around

end
-- ==== Proof.Projection.lean ====
/-
  What the kernel leaves in its result array, at the ideal instance: the dense projection of every support,

      H[k, b, n, g] = Σ_f x[b, n, f] · kernels[k, f, g].

  At grid point (b, tile, k) the body multiplies the 10000 × 64 tile of x[b] by the 64 × 64 matrix kernels[k]
  (the roundings to bf16 are the identity on the extended reals, and a product accumulated into the zero splat is
  the plain sum over the contracted axis) and overwrites block (k, b, tile) of the result. The 4 · 4 · 5 blocks tile
  the [4, 4, 50000, 64] array, so the array ends as H everywhere. No law of arithmetic is used: both sides are the
  same sum of the same products, only indexed differently.
-/
import proofs.«112324_j5531917877260_1_alg».proof.Proof.KernelIdealAround
import Idealize.ShloMosaic.Lib.Pipeline.Value
import Idealize.ShloMosaic.Lib.ValueIdx
import Idealize.ShloMosaic.PureOps.Ideal.Laws

set_option maxRecDepth 16384

noncomputable section

namespace Cert.KernelIdeal.Around

open Cert.KernelIdeal Cert.KernelIdeal.Gen
open Idealize.ShloMosaic Idealize.ShloMosaic.TcCoe Idealize.SL.Sem
open Idealize.ShloMosaic.Pipeline (Dat Cfg Window)

/-! ## The specification -/

/-- The entry of x that H at `i` = (k, b, n, g) multiplies at contracted index `f`: (b, n, f). -/
abbrev xAt (i : S4x4x50000x64.Idx) (f : Fin 64) : S4x50000x64.Idx := fun a => match a with
  | ⟨0, _⟩ => ⟨(i 1).val, (i 1).isLt⟩
  | ⟨1, _⟩ => ⟨(i 2).val, (i 2).isLt⟩
  | ⟨2, _⟩ => ⟨f.val, f.isLt⟩
/-- The entry of the weights it multiplies there: (k, f, g). -/
abbrev wAt (i : S4x4x50000x64.Idx) (f : Fin 64) : S4x64x64.Idx := fun a => match a with
  | ⟨0, _⟩ => ⟨(i 0).val, (i 0).isLt⟩
  | ⟨1, _⟩ => ⟨f.val, f.isLt⟩
  | ⟨2, _⟩ => ⟨(i 3).val, (i 3).isLt⟩

/-- H[k, b, n, g] = Σ_f x[b, n, f] · W[k, f, g]. -/
def proj (x : (⟨S4x50000x64, .f32⟩ : BufTy).Contents (Elt Ideal)) (W : (⟨S4x64x64, .f32⟩ : BufTy).Contents (Elt Ideal)) :
    (⟨S4x4x50000x64, .f32⟩ : BufTy).Contents (Elt Ideal) :=
  fun i => ∑ f : Fin 64, x (xAt i f) * W (wAt i f)

/-! ## The body's product at an index -/

/-- (row, column) of an index of the [1, 1, 10000, 64] output tile. -/
abbrev rowCol (j : S1x1x10000x64.Idx) : S10000x64.Idx := fun a => match a with
  | ⟨0, _⟩ => ⟨(j 2).val, (j 2).isLt⟩
  | ⟨1, _⟩ => ⟨(j 3).val, (j 3).isLt⟩
/-- The entry of the x tile the product at `j` multiplies at contracted index `f`: (0, row, f). -/
abbrev xIn (j : S1x1x10000x64.Idx) (f : Fin 64) : S1x10000x64.Idx := fun a => match a with
  | ⟨0, _⟩ => ⟨0, Nat.one_pos⟩
  | ⟨1, _⟩ => ⟨(j 2).val, (j 2).isLt⟩
  | ⟨2, _⟩ => ⟨f.val, f.isLt⟩
/-- The entry of the weight block it multiplies there: (0, f, column). -/
abbrev wIn (j : S1x1x10000x64.Idx) (f : Fin 64) : S1x64x64.Idx := fun a => match a with
  | ⟨0, _⟩ => ⟨0, Nat.one_pos⟩
  | ⟨1, _⟩ => ⟨f.val, f.isLt⟩
  | ⟨2, _⟩ => ⟨(j 3).val, (j 3).isLt⟩

theorem lhs_row (i : S10000x64.Idx) (q : dot_S10000x64_S64x64_S10000x64_1_0_0_1_n_n.contr.Idx) : (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_contr (i : S10000x64.Idx) (q : dot_S10000x64_S64x64_S10000x64_1_0_0_1_n_n.contr.Idx) : (dot_S10000x64_S64x64_S10000x64_1_0_0_1_n_n.lhsIdx i q 1).val = (q ⟨0, by decide⟩).val :=
  dot_S10000x64_S64x64_S10000x64_1_0_0_1_n_n.lhsIdx_val_of_single rfl i q
theorem rhs_contr (i : S10000x64.Idx) (q : dot_S10000x64_S64x64_S10000x64_1_0_0_1_n_n.contr.Idx) : (dot_S10000x64_S64x64_S10000x64_1_0_0_1_n_n.rhsIdx i q 0).val = (q ⟨0, by decide⟩).val :=
  dot_S10000x64_S64x64_S10000x64_1_0_0_1_n_n.rhsIdx_val_of_single rfl i q
theorem rhs_col (i : S10000x64.Idx) (q : dot_S10000x64_S64x64_S10000x64_1_0_0_1_n_n.contr.Idx) : (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The stored value at `j` = (0, 0, n, g) is Σ_f xtile[0, n, f] · wblock[0, f, g]. -/
theorem payload_apply (x : Vec Ideal S1x10000x64 .f32) (w : Vec Ideal S1x64x64 .f32) (j : S1x1x10000x64.Idx) :
    k0_pay1 (F := Ideal) x w j = ∑ f : Fin 64, x (xIn j f) * w (wIn j f) := by
  unfold k0_pay1
  refine (shapeCast_apply _ shapeCasts_S10000x64_S1x1x10000x64 j (rowCol j) (by
    rewrite [Shape.rowMajor_val_two, Shape.rowMajor_val_four]
    have h0 : (j 0).val < 1 := (j 0).isLt
    have h1 : (j 1).val < 1 := (j 1).isLt
    show (j 2).val * 64 + (j 3).val = (((j 0).val * 1 + (j 1).val) * 10000 + (j 2).val) * 64 + (j 3).val
    omega)).trans ?_
  refine (Ideal.matmul_constant_zero_apply dot_S10000x64_S64x64_S10000x64_1_0_0_1_n_n none _ _ (rowCol j)).trans ?_
  rw [← Equiv.sum_comp (ValueIdx.contrEquiv1 dot_S10000x64_S64x64_S10000x64_1_0_0_1_n_n 64 rfl rfl).symm]
  refine Finset.sum_congr rfl fun f _ => ?_
  have hk := ValueIdx.contrEquiv1_symm_val dot_S10000x64_S64x64_S10000x64_1_0_0_1_n_n 64 rfl rfl f
  refine congrArg₂ (· * ·) ?_ ?_
  · show shapeCast S10000x64 x shapeCasts_S1x10000x64_S10000x64 (dot_S10000x64_S64x64_S10000x64_1_0_0_1_n_n.lhsIdx (rowCol j) ((ValueIdx.contrEquiv1 dot_S10000x64_S64x64_S10000x64_1_0_0_1_n_n 64 rfl rfl).symm f)) = x (xIn j f)
    refine shapeCast_apply x shapeCasts_S1x10000x64_S10000x64 _ (xIn j f) ?_
    rewrite [Shape.rowMajor_val_three, Shape.rowMajor_val_two]
    rw [lhs_row, lhs_contr, hk]
    show (0 * 10000 + (j 2).val) * 64 + f.val = (j 2).val * 64 + f.val
    omega
  · show shapeCast S64x64 w shapeCasts_S1x64x64_S64x64 (dot_S10000x64_S64x64_S10000x64_1_0_0_1_n_n.rhsIdx (rowCol j) ((ValueIdx.contrEquiv1 dot_S10000x64_S64x64_S10000x64_1_0_0_1_n_n 64 rfl rfl).symm f)) = w (wIn j f)
    refine shapeCast_apply w shapeCasts_S1x64x64_S64x64 _ (wIn j f) ?_
    rewrite [Shape.rowMajor_val_three, Shape.rowMajor_val_two]
    rw [rhs_contr, rhs_col, hk]
    show (0 * 64 + f.val) * 64 + (j 3).val = f.val * 64 + (j 3).val
    omega

/-! ## From the blocks to the array -/

variable (m : (ℓ : Loc nD τ sig) → Buf (Elt Ideal) ℓ) (ρ : Dev nD → PrngReg)

theorem zero3 : (![0, 0, 0] : Fin 3 → Nat) = fun _ => 0 := funext fun a => by fin_cases a <;> rfl
theorem zero4 : (![0, 0, 0, 0] : Fin 4 → Nat) = fun _ => 0 := funext fun a => by fin_cases a <;> rfl

/-- The printed index maps over the grid: at point (b, tile, k) the x window is at block (b, tile, 0), the weight
    window at (k, 0, 0) and the result window at (k, b, tile, 0). -/
theorem index_maps : ∀ t : Fin cfg0.N,
    win0_0.index t (0 : Fin 3) = win0_2.index t (1 : Fin 4) ∧ win0_0.index t (1 : Fin 3) = win0_2.index t (2 : Fin 4)
    ∧ win0_0.index t (2 : Fin 3) = 0
    ∧ win0_1.index t (0 : Fin 3) = win0_2.index t (0 : Fin 4) ∧ win0_1.index t (1 : Fin 3) = 0 ∧ win0_1.index t (2 : Fin 3) = 0
    ∧ win0_2.index t (3 : Fin 4) = 0 :=
  (by decide +kernel : ∀ t : Fin grid0.N, _)

/-- Every block (k, b, tile, 0) of the result is some point's. -/
theorem blocks_onto : ∀ (q0 : Fin 4) (q1 : Fin 4) (q2 : Fin 5), ∃ t : Fin cfg0.N, win0_2.index t = ![q0.val, q1.val, q2.val, 0] :=
  (by decide +kernel : ∀ (q0 : Fin 4) (q1 : Fin 4) (q2 : Fin 5), ∃ t : Fin grid0.N, win0_2.index t = ![q0.val, q1.val, q2.val, 0])

/-- What point `t` writes back is block `t` of H of the arguments as launched. -/
theorem flushed_eq (c : Dev nD) (t : Fin cfg0.N) :
    (dats (F := Ideal) m 0 c).flushed 2 t
      = ((cfg0.win 2).blk t).view.read (Elt Ideal) (proj (entryAt m c main_arg0) (entryAt m c main_arg4)) := by
  show (cfg0.win 2).cut (grid0.coords t) ((dats (F := Ideal) m 0 c).after 2 t) = _
  rw [after_o]
  unfold tileOut
  rw [View.canon_unit_zero zero4]
  simp only [View.ld_unit_zero (S := S1x10000x64) zero3, View.ld_unit_zero (S := S1x64x64) zero3]
  obtain ⟨e0, e1, e2, e3, e4, e5, e6⟩ := index_maps t
  funext j
  refine (payload_apply (blockAt m c 0 t) (blockAt m c 1 t) j).trans ?_
  show _ = proj (entryAt m c main_arg0) (entryAt m c main_arg4) (((cfg0.win 2).blk t).view.emb j)
  unfold proj
  refine Finset.sum_congr rfl fun f _ => ?_
  have h0 : (j 0).val < 1 := (j 0).isLt
  have h1 : (j 1).val < 1 := (j 1).isLt
  have h2 : (j 2).val < 10000 := (j 2).isLt
  have h3 : (j 3).val < 64 := (j 3).isLt
  refine congrArg₂ (· * ·) ?_ ?_
  · show entryAt m c main_arg0 (((cfg0.win 0).blk t).view.emb (xIn j f)) = entryAt m c main_arg0 (xAt (((cfg0.win 2).blk t).view.emb j) f)
    refine congrArg (entryAt m c main_arg0) (funext fun a => Fin.ext ?_)
    match a with
    | ⟨0, _⟩ => show win0_0.index t (0 : Fin 3) * 1 + 1 * 0 = win0_2.index t (1 : Fin 4) * 1 + 1 * (j 1).val; omega
    | ⟨1, _⟩ => show win0_0.index t (1 : Fin 3) * 10000 + 1 * (j 2).val = win0_2.index t (2 : Fin 4) * 10000 + 1 * (j 2).val; omega
    | ⟨2, _⟩ => show win0_0.index t (2 : Fin 3) * 64 + 1 * f.val = f.val; omega
  · show entryAt m c main_arg4 (((cfg0.win 1).blk t).view.emb (wIn j f)) = entryAt m c main_arg4 (wAt (((cfg0.win 2).blk t).view.emb j) f)
    refine congrArg (entryAt m c main_arg4) (funext fun a => Fin.ext ?_)
    match a with
    | ⟨0, _⟩ => show win0_1.index t (0 : Fin 3) * 1 + 1 * 0 = win0_2.index t (0 : Fin 4) * 1 + 1 * (j 0).val; omega
    | ⟨1, _⟩ => show win0_1.index t (1 : Fin 3) * 64 + 1 * f.val = f.val; omega
    | ⟨2, _⟩ => show win0_1.index t (2 : Fin 3) * 64 + 1 * (j 3).val = win0_2.index t (3 : Fin 4) * 64 + 1 * (j 3).val; omega

/-- An index of the result array is in point `t`'s block iff each coordinate is in the block's range on its axis. -/
theorem mem_block (t : Fin cfg0.N) (i : S4x4x50000x64.Idx) :
    i ∈ ((cfg0.win 2).blk t).view.set ↔ ∀ a : Fin 4, win0_2.index t a * S1x1x10000x64.size a ≤ (i a).val ∧ (i a).val < win0_2.index t a * S1x1x10000x64.size a + S1x1x10000x64.size a := by
  show i ∈ ((View.whole main_v0).slice (win0_2.rect t)).set ↔ _
  rw [View.set_slice_whole, Rect.mem_set_unit]
  exact Iff.rfl

/-- The blocks written back cover the result array: index (k, b, n, g) is in the block of the point whose result
    window is at (k, b, n / 10000, 0). -/
theorem covered (i : S4x4x50000x64.Idx) : ∃ t : Fin cfg0.N, (cfg0.win 2).flush t = true ∧ i ∈ ((cfg0.win 2).blk t).view.set := by
  have hi0 : (i 0).val < 4 := (i 0).isLt
  have hi1 : (i 1).val < 4 := (i 1).isLt
  have hi2 : (i 2).val < 50000 := (i 2).isLt
  have hi3 : (i 3).val < 64 := (i 3).isLt
  obtain ⟨t, ht⟩ := blocks_onto ⟨(i 0).val, hi0⟩ ⟨(i 1).val, hi1⟩ ⟨(i 2).val / 10000, by omega⟩
  have q0 : win0_2.index t (0 : Fin 4) = (i 0).val := congrFun ht 0
  have q1 : win0_2.index t (1 : Fin 4) = (i 1).val := congrFun ht 1
  have q2 : win0_2.index t (2 : Fin 4) = (i 2).val / 10000 := congrFun ht 2
  have q3 : win0_2.index t (3 : Fin 4) = 0 := congrFun ht 3
  refine ⟨t, flush0_2 t, ?_⟩
  rw [mem_block]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 1 ≤ (i 1).val ∧ (i 1).val < win0_2.index t (1 : Fin 4) * 1 + 1; omega
  | ⟨2, _⟩ => show win0_2.index t (2 : Fin 4) * 10000 ≤ (i 2).val ∧ (i 2).val < win0_2.index t (2 : Fin 4) * 10000 + 10000; omega
  | ⟨3, _⟩ => show win0_2.index t (3 : Fin 4) * 64 ≤ (i 3).val ∧ (i 3).val < win0_2.index t (3 : Fin 4) * 64 + 64; omega

/-- The result array after the launch is H of x and the weights as launched. -/
theorem projected (c : Dev nD) :
    (dats (F := Ideal) m 0 c).arrAt 2 cfg0.N = proj (m ((c : Thread nD τ).loc main_arg0)) (m ((c : Thread nD τ).loc main_arg4)) :=
  (dats (F := Ideal) m 0 c).arrAt_eq_of_cover 2 (proj (entryAt m c main_arg0) (entryAt m c main_arg4)) (fun t _ => flushed_eq m c t) covered

end Cert.KernelIdeal.Around

end
-- ==== Proof.Tail.lean ====
/-
  The host computation both programs share after the dense projection, as one function.

  For each Chebyshev support k the projected features h_k : [4, 50000, 64] are gathered at the edge sources
  cols[k] (a negative index counting from the end, as jnp indexing does), scaled edge by edge by vals[k], and
  summed into the rows named by rows[k] (a segment sum: StableHLO's scatter with an additive body, which drops an
  edge whose row is out of range). The four aggregates are added in order to a zero array, the bias is added along
  the last axis, and the result is clamped below at zero.
-/
import proofs.«112324_j5531917877260_1_alg».proof.KernelIdeal

noncomputable section

namespace Cert.KernelIdeal.Tail

open Cert.KernelIdeal Idealize.ShloMosaic

variable {F : FTy → Type} [FloatOps F] [Facts]
open Facts₀ Facts

/-- Row `k` of a [4, E] array, as a vector of length E. -/
def supportRow {α : Type} (k : Nat) (hk : S4x800000.Slices ![k, 0] S1x800000) (a : S4x800000.Idx → α) : S800000.Idx → α :=
  shapeCast S800000 (extractStridedSlice S1x800000 ![k, 0] a hk) shapeCasts_S1x800000_S800000

/-- The projected features of support `k`, cut out of the [4, 4, 50000, 64] array that holds all four. -/
def featuresOf {α : Type} (k : Nat) (hk : S4x4x50000x64.Slices ![k, 0, 0, 0] S1x4x50000x64) (H : S4x4x50000x64.Idx → α) : S4x50000x64.Idx → α :=
  shapeCast S4x50000x64 (extractStridedSlice S1x4x50000x64 ![k, 0, 0, 0] H hk) shapeCasts_S1x4x50000x64_S4x50000x64

/-- An index below zero counts from the end of the 50000 nodes. -/
def wrapIndex (i : IVec S800000 32) : IVec S800000 32 :=
  select (cmpi .slt i (broadcastInDim S800000 ![] bcast_S_S800000 (constantI S_ 32 0#32)))
    (addi i (broadcastInDim S800000 ![] bcast_S_S800000 (constantI S_ 32 50000#32))) i

/-- The messages of one support: for every batch and edge e, row cols[e] of the projected features scaled by vals[e]. -/
def messages (h : FVec F S4x50000x64 .f32) (colsk : IVec S800000 32) (valsk : FVec F S800000 .f32) : FVec F S4x800000x64 .f32 :=
  mulf (Host.gather gather_S4x50000x64_S800000x1_S4x800000x64_02_1_n_n_1_1_4164 h
      (broadcastInDim S800000x1 ![0] bcast_S800000_S800000x1_0 (wrapIndex colsk)))
    (broadcastInDim S4x800000x64 ![0, 1, 2] bcast_S1x800000x1_S4x800000x64_0_1_2
      (broadcastInDim S1x800000x1 ![1] bcast_S800000_S1x800000x1_1 valsk))

/-- The segment sum of one support's messages into their target rows, batch-major again. -/
def aggregate (rowsk : IVec S800000 32) (msg : FVec F S4x800000x64 .f32) : FVec F S4x50000x64 .f32 :=
  transpose S4x50000x64 [1, 0, 2]
    (Host.scatterAdd scatter_S50000x4x64_S800000x1_S800000x4x64_12_0_0_1
      (broadcastInDim S50000x4x64 ![] bcast_S_S50000x4x64 (constant (F := F) S_ .f32 0x00000000#32))
      (broadcastInDim S800000x1 ![0] bcast_S800000_S800000x1_0 rowsk)
      (transpose S800000x4x64 [1, 0, 2] msg transposes_S4x800000x64_S800000x4x64_1_0_2))
    transposes_S50000x4x64_S4x50000x64_1_0_2

/-- One support's contribution from its projected features. -/
def support (k : Nat) (hk : S4x800000.Slices ![k, 0] S1x800000) (h : FVec F S4x50000x64 .f32)
    (rows cols : IVec S4x800000 32) (vals : FVec F S4x800000 .f32) : FVec F S4x50000x64 .f32 :=
  aggregate (supportRow k hk rows) (messages h (supportRow k hk cols) (supportRow k hk vals))

/-- relu (0 + s_0 + s_1 + s_2 + s_3 + bias), the supports' contributions s_k taken from the projected features h_k. -/
def tailOf (h0 h1 h2 h3 : FVec F S4x50000x64 .f32) (rows cols : IVec S4x800000 32) (vals : FVec F S4x800000 .f32)
    (bias : FVec F S64 .f32) : FVec F S4x50000x64 .f32 :=
  maximumf
    (addf (addf (addf (addf (addf (broadcastInDim S4x50000x64 ![] bcast_S_S4x50000x64 (constant (F := F) S_ .f32 0x00000000#32))
            (support 0 slices_S4x800000_S1x800000_0_0 h0 rows cols vals))
          (support 1 slices_S4x800000_S1x800000_1_0 h1 rows cols vals))
        (support 2 slices_S4x800000_S1x800000_2_0 h2 rows cols vals))
      (support 3 slices_S4x800000_S1x800000_3_0 h3 rows cols vals))
      (broadcastInDim S4x50000x64 ![0, 1, 2] bcast_S1x1x64_S4x50000x64_0_1_2 (broadcastInDim S1x1x64 ![2] bcast_S64_S1x1x64_2 bias)))
    (broadcastInDim S4x50000x64 ![] bcast_S_S4x50000x64 (constant (F := F) S_ .f32 0x00000000#32))

end Cert.KernelIdeal.Tail

end
-- ==== Proof.KernelTail.lean ====
/-
  The host lines after the launch, read as one function.

  From any contents of the buffers, the last line's buffer ends holding the shared tail (`Tail.tailOf`) of the four
  supports' features cut out of the kernel's result array and of the row, column, value and bias arguments.
-/
import proofs.«112324_j5531917877260_1_alg».proof.Proof.KernelIdealAround
import proofs.«112324_j5531917877260_1_alg».proof.Proof.Tail

noncomputable section

namespace Cert.KernelIdeal.Around

open Cert.KernelIdeal Cert.KernelIdeal.Gen Cert.KernelIdeal.Tail
open Idealize.ShloMosaic Idealize.ShloMosaic.TcCoe Idealize.SL.Sem Idealize.ShloMosaic.StableHlo

variable {F : FTy → Type} [FloatOps F]

set_option maxRecDepth 8192 in
set_option maxHeartbeats 48000000 in
/-- The 116 lines compose to the shared tail. -/
theorem tail_reads (Wv : Valuation τ sig (Elt F)) :
    StableHlo.after (List.flatten (tailOps (F := F))) Wv (Proc.devRef .tc main_v101)
      = tailOf (featuresOf 0 slices_S4x4x50000x64_S1x4x50000x64_0_0_0_0 (Wv (Proc.devRef .tc main_v0)))
          (featuresOf 1 slices_S4x4x50000x64_S1x4x50000x64_1_0_0_0 (Wv (Proc.devRef .tc main_v0)))
          (featuresOf 2 slices_S4x4x50000x64_S1x4x50000x64_2_0_0_0 (Wv (Proc.devRef .tc main_v0)))
          (featuresOf 3 slices_S4x4x50000x64_S1x4x50000x64_3_0_0_0 (Wv (Proc.devRef .tc main_v0)))
          (Wv (Proc.devRef .tc main_arg1)) (Wv (Proc.devRef .tc main_arg2)) (Wv (Proc.devRef .tc main_arg3)) (Wv (Proc.devRef .tc main_arg5)) := by
  simp only [tailOps, main_part0_ops0, main_part1_ops0, main_part1_ops1, List.flatten_cons, List.flatten_nil, List.append_nil,
    List.cons_append, List.nil_append]
  after_results_simp
  rfl

end Cert.KernelIdeal.Around

end
-- ==== Proof.KernelValue.lean ====
/-
  The kernel's program's result, at the ideal instance, as a function of the arguments.

  The launch leaves the projection H of x and the weights in its result array; the host lines then compose to the
  shared tail of the four supports' features cut out of H and of the row, column, value and bias arguments, all of
  which they find as launched.
-/
import proofs.«112324_j5531917877260_1_alg».proof.Proof.Projection
import proofs.«112324_j5531917877260_1_alg».proof.Proof.KernelTail

noncomputable section

namespace Cert.KernelIdeal.Around

open Cert.KernelIdeal Cert.KernelIdeal.Gen Cert.KernelIdeal.Tail
open Idealize.ShloMosaic Idealize.ShloMosaic.TcCoe Idealize.SL.Sem
open Idealize.ShloMosaic.Pipeline (Dat Cfg Window)

/-- relu (Σ_k segment_sum (H_k[:, cols[k], :] · vals[k], rows[k]) + bias) with H the projection of x by the weights. -/
def result (x : (⟨S4x50000x64, .f32⟩ : BufTy).Contents (Elt Ideal)) (rows cols : (⟨S4x800000, .i32⟩ : BufTy).Contents (Elt Ideal))
    (vals : (⟨S4x800000, .f32⟩ : BufTy).Contents (Elt Ideal)) (W : (⟨S4x64x64, .f32⟩ : BufTy).Contents (Elt Ideal))
    (bias : (⟨S64, .f32⟩ : BufTy).Contents (Elt Ideal)) : (⟨S4x50000x64, .f32⟩ : BufTy).Contents (Elt Ideal) :=
  tailOf (F := Ideal) (featuresOf 0 slices_S4x4x50000x64_S1x4x50000x64_0_0_0_0 (proj x W))
    (featuresOf 1 slices_S4x4x50000x64_S1x4x50000x64_1_0_0_0 (proj x W))
    (featuresOf 2 slices_S4x4x50000x64_S1x4x50000x64_2_0_0_0 (proj x W))
    (featuresOf 3 slices_S4x4x50000x64_S1x4x50000x64_3_0_0_0 (proj x W)) rows cols vals bias

/-- From buffer contents that hold H in the kernel's result array and given arrays in the four arguments the host
    lines read, the last line's buffer ends at `result`. -/
theorem tail_value_of (Wv : Valuation τ sig (Elt Ideal))
    (x : (⟨S4x50000x64, .f32⟩ : BufTy).Contents (Elt Ideal)) (rows cols : (⟨S4x800000, .i32⟩ : BufTy).Contents (Elt Ideal))
    (vals : (⟨S4x800000, .f32⟩ : BufTy).Contents (Elt Ideal)) (W : (⟨S4x64x64, .f32⟩ : BufTy).Contents (Elt Ideal))
    (bias : (⟨S64, .f32⟩ : BufTy).Contents (Elt Ideal))
    (hH : Wv (Proc.devRef .tc main_v0) = proj x W) (h1 : Wv (Proc.devRef .tc main_arg1) = rows)
    (h2 : Wv (Proc.devRef .tc main_arg2) = cols) (h3 : Wv (Proc.devRef .tc main_arg3) = vals)
    (h5 : Wv (Proc.devRef .tc main_arg5) = bias) :
    StableHlo.after (List.flatten (tailOps (F := Ideal))) Wv (Proc.devRef .tc main_v101) = result x rows cols vals W bias := by
  rw [tail_reads, hH, h1, h2, h3, h5]
  rfl

variable (m : (ℓ : Loc nD τ sig) → Buf (Elt Ideal) ℓ) (ρ : Dev nD → PrngReg)

/-- What the host lines leave in the result buffer after the launch. -/
theorem tail_value (c : Dev nD) :
    Pipeline.afterTail₀ cfgs (dats (F := Ideal) m) 0 (entryVal m) tailOps c main_v101
      = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Pipeline.afterTail₀
  exact tail_value_of _ _ _ _ _ _ _
    ((Pipeline.withArrays_arr spec0 launch0.win.arr_inj c _ _ 2).trans (projected m c))
    (Pipeline.withArrays_of_ne _ c (entryVal m c) _ main_arg1 (by decide))
    (Pipeline.withArrays_of_ne _ c (entryVal m c) _ main_arg2 (by decide))
    (Pipeline.withArrays_of_ne _ c (entryVal m c) _ main_arg3 (by decide))
    (Pipeline.withArrays_of_ne _ c (entryVal m c) _ main_arg5 (by decide))

/-- Every weakly fair execution of the idealized kernel's program terminates with its result at `result` of the
    arguments as launched, and the arguments unchanged. -/
theorem run_value : θ_run defs (onTc (τ := τ) (main (F := Ideal))) ⟨m, fun _ => 0, ρ⟩ (fun r => ∀ c : Dev nD,
      r.2.mem ((c.tc : Thread nD τ).loc main_v101)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨((h c).2 main_v101 (Pipeline.mem_restRefs_of main_v101 (by decide) (by decide))).trans (tail_value m c),
     args_kept m r h c⟩) (run_main m ρ)

end Cert.KernelIdeal.Around

end
-- ==== Proof.ReferenceTail.lean ====
/-
  The reference's result as the shared tail of its four projections.

  The reference contracts x with kernels[k] on the host (an einsum 'bnf,fg->bng') for each support and then applies
  the same host computation as the kernel's program: its composed result is `Tail.tailOf` of those four contractions.
-/
import proofs.«112324_j5531917877260_1_alg».proof.Proof.Gen.ReferenceIdeal.Run
import proofs.«112324_j5531917877260_1_alg».proof.Proof.Gen.KernelIdeal
import proofs.«112324_j5531917877260_1_alg».proof.Proof.Tail

noncomputable section

namespace Cert.ReferenceIdeal.Shared

open Cert.ReferenceIdeal Cert.ReferenceIdeal.Gen
open Idealize.ShloMosaic Idealize.ShloMosaic.TcCoe Idealize.SL.Sem Idealize.ShloMosaic.StableHlo

variable {F : FTy → Type} [FloatOps F]

/-- The reference's projection for support `k`: x contracted over its feature axis with the matrix kernels[k]. -/
def einsumOf (k : Nat) (hk : S4x64x64.Slices ![k, 0, 0] S1x64x64) (x : FVec F S4x50000x64 .f32) (W : FVec F S4x64x64 .f32) :
    FVec F S4x50000x64 .f32 :=
  Host.dotGeneral dot_S4x50000x64_S64x64_S4x50000x64_2_0_01_1_n_n none x
    (shapeCast S64x64 (extractStridedSlice S1x64x64 ![k, 0, 0] W hk) shapeCasts_S1x64x64_S64x64)

set_option maxRecDepth 8192 in
set_option maxHeartbeats 4000000 in
theorem result_is_tail (m : (ℓ : Loc nD τ sig) → Buf (Elt F) ℓ) (c : Dev nD) :
    Value.res_out0 (F := F) m c
      = Cert.KernelIdeal.Tail.tailOf
          (einsumOf 0 slices_S4x64x64_S1x64x64_0_0_0 (m ((c.tc : Thread nD τ).loc main_arg0)) (m ((c.tc : Thread nD τ).loc main_arg4)))
          (einsumOf 1 slices_S4x64x64_S1x64x64_1_0_0 (m ((c.tc : Thread nD τ).loc main_arg0)) (m ((c.tc : Thread nD τ).loc main_arg4)))
          (einsumOf 2 slices_S4x64x64_S1x64x64_2_0_0 (m ((c.tc : Thread nD τ).loc main_arg0)) (m ((c.tc : Thread nD τ).loc main_arg4)))
          (einsumOf 3 slices_S4x64x64_S1x64x64_3_0_0 (m ((c.tc : Thread nD τ).loc main_arg0)) (m ((c.tc : Thread nD τ).loc main_arg4)))
          (m ((c.tc : Thread nD τ).loc main_arg1)) (m ((c.tc : Thread nD τ).loc main_arg2))
          (m ((c.tc : Thread nD τ).loc main_arg3)) (m ((c.tc : Thread nD τ).loc main_arg5)) := by
  show Value.res_main_v104 (F := F) m c = _
  unfold Value.res_main_v104
  rfl

end Cert.ReferenceIdeal.Shared

end
-- ==== Proof.Bridge.lean ====
/-
  The two programs' projections agree, support by support.

  The kernel's program reads support k's features out of the one array H it computed for all four supports;
  the reference contracts x with kernels[k] afresh. Index by index both are Σ_f x[b, n, f] · kernels[k, f, g]:
  the same finite sum of the same products, so the equality holds on the extended reals with no hypothesis on the
  inputs (nothing is regrouped, cancelled or distributed).
-/
import proofs.«112324_j5531917877260_1_alg».proof.Proof.Projection
import proofs.«112324_j5531917877260_1_alg».proof.Proof.ReferenceTail
import proofs.«112324_j5531917877260_1_alg».proof.Proof.Gen.ReferenceIdeal.Read

set_option maxRecDepth 16384

noncomputable section

namespace Cert.Bridge

open Idealize.ShloMosaic
open Cert.KernelIdeal.Around (proj xAt wAt)
open Cert.KernelIdeal.Tail (featuresOf)
open Cert.ReferenceIdeal.Shared (einsumOf)

/-- (b, n, g) of one support's features, as the index (0, b, n, g) of the slice it is cast from. -/
abbrev inSlice (i : Cert.KernelIdeal.S4x50000x64.Idx) : Cert.KernelIdeal.S1x4x50000x64.Idx := fun a => match a with
  | ⟨0, _⟩ => ⟨0, Nat.one_pos⟩
  | ⟨1, _⟩ => ⟨(i 0).val, (i 0).isLt⟩
  | ⟨2, _⟩ => ⟨(i 1).val, (i 1).isLt⟩
  | ⟨3, _⟩ => ⟨(i 2).val, (i 2).isLt⟩
/-- and as the index (k, b, n, g) of the whole array. -/
abbrev inArray (k : Nat) (hk : k < 4) (i : Cert.KernelIdeal.S4x50000x64.Idx) : Cert.KernelIdeal.S4x4x50000x64.Idx := fun a => match a with
  | ⟨0, _⟩ => ⟨k, hk⟩
  | ⟨1, _⟩ => ⟨(i 0).val, (i 0).isLt⟩
  | ⟨2, _⟩ => ⟨(i 1).val, (i 1).isLt⟩
  | ⟨3, _⟩ => ⟨(i 2).val, (i 2).isLt⟩

/-- Support 0: its features cut out of H are x contracted with kernels[0]. -/
theorem features_eq_einsum_0 (x : (⟨Cert.KernelIdeal.S4x50000x64, .f32⟩ : BufTy).Contents (Elt Ideal))
    (W : (⟨Cert.KernelIdeal.S4x64x64, .f32⟩ : BufTy).Contents (Elt Ideal)) :
    featuresOf 0 Cert.KernelIdeal.Facts₀.slices_S4x4x50000x64_S1x4x50000x64_0_0_0_0 (proj x W)
      = einsumOf (F := Ideal) 0 Cert.ReferenceIdeal.Facts₀.slices_S4x64x64_S1x64x64_0_0_0 x W := by
  funext i
  show _ = Cert.ReferenceIdeal.Read.val_main_v3 (F := Ideal) x W i
  rw [Cert.ReferenceIdeal.Read.val_main_v3_apply]
  simp only [Cert.ReferenceIdeal.Read.val_main_v2_apply, Cert.ReferenceIdeal.Read.val_main_v1_apply]
  unfold Cert.KernelIdeal.Tail.featuresOf
  refine ((shapeCast_apply _ Cert.KernelIdeal.Facts₀.shapeCasts_S1x4x50000x64_S4x50000x64 i (inSlice i) (by
      rewrite [Shape.rowMajor_val_four, Shape.rowMajor_val_three]
      show (((0 * 4 + (i 0).val) * 50000 + (i 1).val) * 64 + (i 2).val) = ((i 0).val * 50000 + (i 1).val) * 64 + (i 2).val
      omega)).trans
    (extractStridedSlice_apply ![0, 0, 0, 0] _ Cert.KernelIdeal.Facts₀.slices_S4x4x50000x64_S1x4x50000x64_0_0_0_0 (inSlice i) (inArray 0 (by decide) i) (fun a => match a with
      | ⟨0, _⟩ => by show 0 = 0 + 0; omega
      | ⟨1, _⟩ => by show (i 0).val = 0 + (i 0).val; omega
      | ⟨2, _⟩ => by show (i 1).val = 0 + (i 1).val; omega
      | ⟨3, _⟩ => by show (i 2).val = 0 + (i 2).val; omega))).trans ?_
  unfold proj
  refine Finset.sum_congr rfl fun f _ => ?_
  have hf : f.val < 64 := f.isLt
  have h2 : (i 2).val < 64 := (i 2).isLt
  refine congrArg₂ (· * ·) (congrArg x (funext fun a => Fin.ext ?_)) (congrArg W (funext fun a => Fin.ext ?_))
  · match a with
    | ⟨0, _⟩ => rfl
    | ⟨1, _⟩ => rfl
    | ⟨2, _⟩ => rfl
  · match a with
    | ⟨0, _⟩ => show 0 = 0; rfl
    | ⟨1, _⟩ => show f.val = (f.val * 64 + (i 2).val) / 64 % 64; omega
    | ⟨2, _⟩ => show (i 2).val = (f.val * 64 + (i 2).val) % 64; omega

/-- Support 1: its features cut out of H are x contracted with kernels[1]. -/
theorem features_eq_einsum_1 (x : (⟨Cert.KernelIdeal.S4x50000x64, .f32⟩ : BufTy).Contents (Elt Ideal))
    (W : (⟨Cert.KernelIdeal.S4x64x64, .f32⟩ : BufTy).Contents (Elt Ideal)) :
    featuresOf 1 Cert.KernelIdeal.Facts₀.slices_S4x4x50000x64_S1x4x50000x64_1_0_0_0 (proj x W)
      = einsumOf (F := Ideal) 1 Cert.ReferenceIdeal.Facts₀.slices_S4x64x64_S1x64x64_1_0_0 x W := by
  funext i
  show _ = Cert.ReferenceIdeal.Read.val_main_v28 (F := Ideal) x W i
  rw [Cert.ReferenceIdeal.Read.val_main_v28_apply]
  simp only [Cert.ReferenceIdeal.Read.val_main_v27_apply, Cert.ReferenceIdeal.Read.val_main_v26_apply]
  unfold Cert.KernelIdeal.Tail.featuresOf
  refine ((shapeCast_apply _ Cert.KernelIdeal.Facts₀.shapeCasts_S1x4x50000x64_S4x50000x64 i (inSlice i) (by
      rewrite [Shape.rowMajor_val_four, Shape.rowMajor_val_three]
      show (((0 * 4 + (i 0).val) * 50000 + (i 1).val) * 64 + (i 2).val) = ((i 0).val * 50000 + (i 1).val) * 64 + (i 2).val
      omega)).trans
    (extractStridedSlice_apply ![1, 0, 0, 0] _ Cert.KernelIdeal.Facts₀.slices_S4x4x50000x64_S1x4x50000x64_1_0_0_0 (inSlice i) (inArray 1 (by decide) i) (fun a => match a with
      | ⟨0, _⟩ => by show 1 = 1 + 0; omega
      | ⟨1, _⟩ => by show (i 0).val = 0 + (i 0).val; omega
      | ⟨2, _⟩ => by show (i 1).val = 0 + (i 1).val; omega
      | ⟨3, _⟩ => by show (i 2).val = 0 + (i 2).val; omega))).trans ?_
  unfold proj
  refine Finset.sum_congr rfl fun f _ => ?_
  have hf : f.val < 64 := f.isLt
  have h2 : (i 2).val < 64 := (i 2).isLt
  refine congrArg₂ (· * ·) (congrArg x (funext fun a => Fin.ext ?_)) (congrArg W (funext fun a => Fin.ext ?_))
  · match a with
    | ⟨0, _⟩ => rfl
    | ⟨1, _⟩ => rfl
    | ⟨2, _⟩ => rfl
  · match a with
    | ⟨0, _⟩ => show 1 = 1 + 0; omega
    | ⟨1, _⟩ => show f.val = (f.val * 64 + (i 2).val) / 64 % 64; omega
    | ⟨2, _⟩ => show (i 2).val = (f.val * 64 + (i 2).val) % 64; omega

/-- Support 2: its features cut out of H are x contracted with kernels[2]. -/
theorem features_eq_einsum_2 (x : (⟨Cert.KernelIdeal.S4x50000x64, .f32⟩ : BufTy).Contents (Elt Ideal))
    (W : (⟨Cert.KernelIdeal.S4x64x64, .f32⟩ : BufTy).Contents (Elt Ideal)) :
    featuresOf 2 Cert.KernelIdeal.Facts₀.slices_S4x4x50000x64_S1x4x50000x64_2_0_0_0 (proj x W)
      = einsumOf (F := Ideal) 2 Cert.ReferenceIdeal.Facts₀.slices_S4x64x64_S1x64x64_2_0_0 x W := by
  funext i
  show _ = Cert.ReferenceIdeal.Read.val_main_v53 (F := Ideal) x W i
  rw [Cert.ReferenceIdeal.Read.val_main_v53_apply]
  simp only [Cert.ReferenceIdeal.Read.val_main_v52_apply, Cert.ReferenceIdeal.Read.val_main_v51_apply]
  unfold Cert.KernelIdeal.Tail.featuresOf
  refine ((shapeCast_apply _ Cert.KernelIdeal.Facts₀.shapeCasts_S1x4x50000x64_S4x50000x64 i (inSlice i) (by
      rewrite [Shape.rowMajor_val_four, Shape.rowMajor_val_three]
      show (((0 * 4 + (i 0).val) * 50000 + (i 1).val) * 64 + (i 2).val) = ((i 0).val * 50000 + (i 1).val) * 64 + (i 2).val
      omega)).trans
    (extractStridedSlice_apply ![2, 0, 0, 0] _ Cert.KernelIdeal.Facts₀.slices_S4x4x50000x64_S1x4x50000x64_2_0_0_0 (inSlice i) (inArray 2 (by decide) i) (fun a => match a with
      | ⟨0, _⟩ => by show 2 = 2 + 0; omega
      | ⟨1, _⟩ => by show (i 0).val = 0 + (i 0).val; omega
      | ⟨2, _⟩ => by show (i 1).val = 0 + (i 1).val; omega
      | ⟨3, _⟩ => by show (i 2).val = 0 + (i 2).val; omega))).trans ?_
  unfold proj
  refine Finset.sum_congr rfl fun f _ => ?_
  have hf : f.val < 64 := f.isLt
  have h2 : (i 2).val < 64 := (i 2).isLt
  refine congrArg₂ (· * ·) (congrArg x (funext fun a => Fin.ext ?_)) (congrArg W (funext fun a => Fin.ext ?_))
  · match a with
    | ⟨0, _⟩ => rfl
    | ⟨1, _⟩ => rfl
    | ⟨2, _⟩ => rfl
  · match a with
    | ⟨0, _⟩ => show 2 = 2 + 0; omega
    | ⟨1, _⟩ => show f.val = (f.val * 64 + (i 2).val) / 64 % 64; omega
    | ⟨2, _⟩ => show (i 2).val = (f.val * 64 + (i 2).val) % 64; omega

/-- Support 3: its features cut out of H are x contracted with kernels[3]. -/
theorem features_eq_einsum_3 (x : (⟨Cert.KernelIdeal.S4x50000x64, .f32⟩ : BufTy).Contents (Elt Ideal))
    (W : (⟨Cert.KernelIdeal.S4x64x64, .f32⟩ : BufTy).Contents (Elt Ideal)) :
    featuresOf 3 Cert.KernelIdeal.Facts₀.slices_S4x4x50000x64_S1x4x50000x64_3_0_0_0 (proj x W)
      = einsumOf (F := Ideal) 3 Cert.ReferenceIdeal.Facts₀.slices_S4x64x64_S1x64x64_3_0_0 x W := by
  funext i
  show _ = Cert.ReferenceIdeal.Read.val_main_v78 (F := Ideal) x W i
  rw [Cert.ReferenceIdeal.Read.val_main_v78_apply]
  simp only [Cert.ReferenceIdeal.Read.val_main_v77_apply, Cert.ReferenceIdeal.Read.val_main_v76_apply]
  unfold Cert.KernelIdeal.Tail.featuresOf
  refine ((shapeCast_apply _ Cert.KernelIdeal.Facts₀.shapeCasts_S1x4x50000x64_S4x50000x64 i (inSlice i) (by
      rewrite [Shape.rowMajor_val_four, Shape.rowMajor_val_three]
      show (((0 * 4 + (i 0).val) * 50000 + (i 1).val) * 64 + (i 2).val) = ((i 0).val * 50000 + (i 1).val) * 64 + (i 2).val
      omega)).trans
    (extractStridedSlice_apply ![3, 0, 0, 0] _ Cert.KernelIdeal.Facts₀.slices_S4x4x50000x64_S1x4x50000x64_3_0_0_0 (inSlice i) (inArray 3 (by decide) i) (fun a => match a with
      | ⟨0, _⟩ => by show 3 = 3 + 0; omega
      | ⟨1, _⟩ => by show (i 0).val = 0 + (i 0).val; omega
      | ⟨2, _⟩ => by show (i 1).val = 0 + (i 1).val; omega
      | ⟨3, _⟩ => by show (i 2).val = 0 + (i 2).val; omega))).trans ?_
  unfold proj
  refine Finset.sum_congr rfl fun f _ => ?_
  have hf : f.val < 64 := f.isLt
  have h2 : (i 2).val < 64 := (i 2).isLt
  refine congrArg₂ (· * ·) (congrArg x (funext fun a => Fin.ext ?_)) (congrArg W (funext fun a => Fin.ext ?_))
  · match a with
    | ⟨0, _⟩ => rfl
    | ⟨1, _⟩ => rfl
    | ⟨2, _⟩ => rfl
  · match a with
    | ⟨0, _⟩ => show 3 = 3 + 0; omega
    | ⟨1, _⟩ => show f.val = (f.val * 64 + (i 2).val) / 64 % 64; omega
    | ⟨2, _⟩ => show (i 2).val = (f.val * 64 + (i 2).val) % 64; omega

end Cert.Bridge

end
-- ==== Proof.lean ====
/-
  The claim: a graph convolution over four Chebyshev supports,

      out = relu ( Σ_k segment_sum ( (x @ kernels[k])[:, cols[k], :] · vals[k], rows[k] ) + bias ),

  computed by a Pallas matmul kernel for the dense projections x @ kernels[k] (all four supports in one launch, in
  bf16 on the matrix unit with an f32 accumulator) followed by the gather / scale / segment-sum on the host, against
  a jnp reference that forms each projection by an einsum and then does the same host computation.

  On the extended reals the rounding to bf16 is the identity and the matrix unit's product into a zero accumulator is
  the plain sum Σ_f x[b, n, f] · kernels[k, f, g], so the kernel's result array holds exactly the four projections
  (Proof/Projection.lean), each equal to the reference's einsum term by term (Proof/Bridge.lean); everything after the
  projection is one and the same function in both programs (Proof/Tail.lean), applied to equal arguments. No
  arithmetic law is used, so the finiteness of the inputs is never opened. The frames: the launch returns every array
  it stages as it found it except its own result, and no host line writes an argument (Proof/KernelAround.lean,
  Proof/KernelIdealAround.lean, at the word level and on the extended reals); the reference is host lines only.
  The idealization rewrote no operation of the kernel's program, so there is nothing to preserve.
-/
import proofs.«112324_j5531917877260_1_alg».proof.Defs
import proofs.«112324_j5531917877260_1_alg».proof.Proof.Gen.Kernel
import proofs.«112324_j5531917877260_1_alg».proof.Proof.Gen.KernelIdeal
import proofs.«112324_j5531917877260_1_alg».proof.Proof.Gen.ReferenceIdeal
import proofs.«112324_j5531917877260_1_alg».proof.Proof.Gen.Pre_finite_inputs
import proofs.«112324_j5531917877260_1_alg».proof.Proof.Gen.ReferenceIdeal.Run
import proofs.«112324_j5531917877260_1_alg».proof.Proof.Gen.ReferenceIdeal.Read
import proofs.«112324_j5531917877260_1_alg».proof.Proof.KernelAround
import proofs.«112324_j5531917877260_1_alg».proof.Proof.KernelIdealAround
import proofs.«112324_j5531917877260_1_alg».proof.Proof.KernelValue
import proofs.«112324_j5531917877260_1_alg».proof.Proof.ReferenceTail
import proofs.«112324_j5531917877260_1_alg».proof.Proof.Bridge

noncomputable section

namespace Cert.Proof

open Idealize.ShloMosaic Idealize.SL.Sem

theorem frame_kernel : Cert.frame_Kernel := fun m ρ _ => Cert.Kernel.Around.frame m ρ

theorem frame_kernel_ideal : Cert.frame_KernelIdeal := fun m ρ _ => Cert.KernelIdeal.Around.frame m ρ

/-- The reference is host lines only: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the shared tail of equal projections of equal arguments. -/
theorem algebraic : Cert.algebraic_KernelIdeal_ReferenceIdeal := by
  intro m ρ m' ρ' _ hagree
  refine ⟨_, Cert.KernelIdeal.Around.run_value m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Shared.result_is_tail m' c).trans ?_
  obtain ⟨a0, a1, a2, a3, a4, a5⟩ := hagree c
  rw [a0, a1, a2, a3, a4, a5, ← Cert.Bridge.features_eq_einsum_0, ← Cert.Bridge.features_eq_einsum_1,
    ← Cert.Bridge.features_eq_einsum_2, ← Cert.Bridge.features_eq_einsum_3]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
